-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 90
  | .vmem => 14
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x16, .f32⟩
  | .hbm, ⟨56, _⟩ => ⟨S3300000x1, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S_, .i32⟩
  | .hbm, ⟨71, _⟩ => ⟨S3300000, .i32⟩
  | .hbm, ⟨72, _⟩ => ⟨S3300000, .i1⟩
  | .hbm, ⟨73, _⟩ => ⟨S_, .i32⟩
  | .hbm, ⟨74, _⟩ => ⟨S3300000, .i32⟩
  | .hbm, ⟨75, _⟩ => ⟨S3300000, .i32⟩
  | .hbm, ⟨76, _⟩ => ⟨S3300000, .i32⟩
  | .hbm, ⟨77, _⟩ => ⟨S3300000x1, .i32⟩
  | .hbm, ⟨78, _⟩ => ⟨S3300000x40, .f32⟩
  | .hbm, ⟨79, _⟩ => ⟨S3300000x1, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x40.size a ≤ S100000x40.size a
  hwx2_1 : ∀ i : grid2.Coords, EltTy.bits .f32 = 32 ∨ (Rect.block (s := S100000x40) S5000x40.size (cc2_transform_1 i) (hinb2_1 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x40.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S100000x16 : Shape := ⟨2, ![100000, 16]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x40, .f32⟩
  | 5 => ⟨S40, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S100000x16, .f32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S_, .f32⟩
  | 71 => ⟨S3300000, .f32⟩
  | 72 => ⟨S_, .f32⟩
  | 73 => ⟨S100000, .f32⟩
  | 74 => ⟨S3300000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000, .f32⟩
  | 93 => ⟨S_, .i32⟩
  | 94 => ⟨S3300000, .i32⟩
  | 95 => ⟨S3300000, .i1⟩
  | 96 => ⟨S_, .i32⟩
  | 97 => ⟨S3300000, .i32⟩
  | 98 => ⟨S3300000, .i32⟩
  | 99 => ⟨S3300000, .i32⟩
  | 100 => ⟨S3300000x1, .i32⟩
  | 101 => ⟨S3300000, .f32⟩
  | 102 => ⟨S3300000, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x40, .f32⟩
  | 112 => ⟨S3300000x1, .f32⟩
  | 113 => ⟨S3300000x40, .f32⟩
  | 114 => ⟨S3300000x40, .f32⟩
  | 115 => ⟨S_, .f32⟩
  | 116 => ⟨S100000x40, .f32⟩
  | 117 => ⟨S3300000x1, .i32⟩
  | 118 => ⟨S100000x40, .f32⟩
  | 119 => ⟨S1x40, .f32⟩
  | 120 => ⟨S100000x40, .f32⟩
  | 121 => ⟨S100000x40, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x40, .f32⟩
  | 1 => ⟨S100000x40, .f32⟩
  | 2 => ⟨S100000x40, .f32⟩
  | 3 => ⟨S_, .f32⟩
  | 4 => ⟨S100000, .f32⟩
  | 5 => ⟨S100000x1, .f32⟩
  | 6 => ⟨S100000x1, .f32⟩
  | 7 => ⟨S100000x40, .f32⟩
  | 8 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The kernel program's run with its result named.

  @main is nine segments: three stretches of host operations, the first matrix-product region, two more stretches, the
  second matrix-product region, one stretch, the log-soft-max region. The buffer contents at the boundaries are a fold
  from the launch memory (W0 … W9 in the generated frame module): a stretch's fold of its operations' results, and a
  region's arrays at what its write-backs leave. The generated frame module launches the segments and reads the last
  boundary's contents W9 against the final state for the six arguments only; here the same launch is read at the result
  buffer as well: every weakly fair execution ends with the result buffer at W9's contents, the arguments unchanged.
-/
import proofs.«158676_j62508954026414_1_alg».proof.Proof.Gen.KernelIdeal.Frame

set_option maxRecDepth 16384

noncomputable section

namespace Cert.KernelIdeal.HandRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer holding the last
    boundary's contents and the six argument arrays as launched. -/
theorem run_named : θ_run defs (onTc (τ := τ) (main (F := F))) ⟨m, fun _ => 0, ρ⟩ (fun r => ∀ c : Dev nD,
      r.2.mem ((c.tc : Thread nD τ).loc main_v65) = W9 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v65 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.HandRun

end
-- ==== Proof.Stages.lean ====
/-
  The two-layer graph convolution, stage by stage, as plain functions of arrays.

  A graph on n = 100000 nodes is given by its edge list `e` (two rows of 3200000 node indices). Every node also gets a
  self-loop, so the list of edges has 3300000 entries; `firstEnds e` and `secondEnds e` are its two columns.
  With deg(v) the number of edges whose second end is v, an edge (s, d) carries the weight
  deg(s)^(-1/2) · deg(d)^(-1/2) (0 where a degree is not positive). One propagation step sends a node-feature array `h`
  to  v ↦ (Σ over edges (s, d) with d = v of weight(s, d) · h[s]) + b,  and the network is

      logSoftmaxRows (propagate40 ((relu (propagate16 (x · W1) …)) · W2) …)

  where `·` is the matrix product and `logSoftmaxRows a` is, row by row, z − log Σ exp z with z = a − max a.
  Both programs compute exactly these stages; they differ only in HOW the two matrix products and the log-soft-max are
  carried out (in row blocks on the accelerator, or as one host operation each).
-/
import proofs.«158676_j62508954026414_1_alg».proof.ReferenceIdeal

noncomputable section

namespace Cert.Stages

open Idealize.ShloMosaic Cert.ReferenceIdeal

variable {F : FTy → Type} [FloatOps F] [Facts]

open Facts₀ Facts

/-- The first ends of all edges: row 0 of the edge list, then the self-loops 0, 1, …, n − 1. -/
def firstEnds (e : (⟨S2x3200000, .i32⟩ : BufTy).Contents (Elt F)) : (⟨S3300000, .i32⟩ : BufTy).Contents (Elt F) :=
  concatenate S3300000 0
    [⟨S3200000, shapeCast _ (extractStridedSlice S1x3200000 ![0, 0] e slices_S2x3200000_S1x3200000_0_0) shapeCasts_S1x3200000_S3200000⟩,
     ⟨S100000, iotaInDim S100000 32 0⟩] concatenates_S3200000_S100000_S3300000_d0

/-- The second ends of all edges: row 1 of the edge list, then the self-loops. -/
def secondEnds (e : (⟨S2x3200000, .i32⟩ : BufTy).Contents (Elt F)) : (⟨S3300000, .i32⟩ : BufTy).Contents (Elt F) :=
  concatenate S3300000 0
    [⟨S3200000, shapeCast _ (extractStridedSlice S1x3200000 ![1, 0] e slices_S2x3200000_S1x3200000_1_0) shapeCasts_S1x3200000_S3200000⟩,
     ⟨S100000, iotaInDim S100000 32 0⟩] concatenates_S3200000_S100000_S3300000_d0

/-- Node indices as a column of row positions, a negative index counted from the end (v < 0 ↦ v + n). -/
def rowOf (v : (⟨S3300000, .i32⟩ : BufTy).Contents (Elt F)) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- deg(v): a one added at the second end of every edge. -/
def degree (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- deg(v)^(-1/2) where deg(v) > 0, and 0 elsewhere. -/
def invSqrtDegree (d : (⟨S3300000, .i32⟩ : BufTy).Contents (Elt F)) : (⟨S100000, .f32⟩ : BufTy).Contents (Elt F) :=
  select (cmpf .ogt (degree d) (broadcastInDim S100000 ![] bcast_S_S100000 (constant S_ .f32 0x00000000#32)))
    (Host.rsqrt (degree d))
    (broadcastInDim S100000 ![] bcast_S_S100000 (constant S_ .f32 0x00000000#32))

/-- The weight of each edge (s, d): deg(s)^(-1/2) · deg(d)^(-1/2). -/
def edgeWeight (s d : (⟨S3300000, .i32⟩ : BufTy).Contents (Elt F)) : (⟨S3300000, .f32⟩ : BufTy).Contents (Elt F) :=
  mulf (Host.gather gather_S100000_S3300000x1_S3300000_n_0_n_n_0_1_1 (invSqrtDegree d) (rowOf s))
    (Host.gather gather_S100000_S3300000x1_S3300000_n_0_n_n_0_1_1 (invSqrtDegree d) (rowOf d))

/-- One propagation step on 16 features: v ↦ (Σ over edges (s, d) with d = v of w(s, d) · h[s]) + b. -/
def propagate16 (h : (⟨S100000x16, .f32⟩ : BufTy).Contents (Elt F)) (s d : (⟨S3300000, .i32⟩ : BufTy).Contents (Elt F))
    (w : (⟨S3300000, .f32⟩ : BufTy).Contents (Elt F)) (b : (⟨S16, .f32⟩ : BufTy).Contents (Elt F)) :
    (⟨S100000x16, .f32⟩ : BufTy).Contents (Elt F) :=
  addf
    (Host.scatterAdd scatter_S100000x16_S3300000x1_S3300000x16_1_0_0_1
      (broadcastInDim S100000x16 ![] bcast_S_S100000x16 (constant S_ .f32 0x00000000#32))
      (broadcastInDim S3300000x1 ![0] bcast_S3300000_S3300000x1_0 d)
      (mulf (Host.gather gather_S100000x16_S3300000x1_S3300000x16_1_0_n_n_0_1_116 h (rowOf s))
        (broadcastInDim S3300000x16 ![0, 1] bcast_S3300000x1_S3300000x16_0_1
          (broadcastInDim S3300000x1 ![0] bcast_S3300000_S3300000x1_0 w))))
    (broadcastInDim S100000x16 ![0, 1] bcast_S1x16_S100000x16_0_1 (broadcastInDim S1x16 ![1] bcast_S16_S1x16_1 b))

/-- max(a, 0), entry by entry. -/
def relu16 (a : (⟨S100000x16, .f32⟩ : BufTy).Contents (Elt F)) : (⟨S100000x16, .f32⟩ : BufTy).Contents (Elt F) :=
  maximumf a (broadcastInDim S100000x16 ![] bcast_S_S100000x16 (constant S_ .f32 0x00000000#32))

/-- One propagation step on 40 features. -/
def propagate40 (h : (⟨S100000x40, .f32⟩ : BufTy).Contents (Elt F)) (s d : (⟨S3300000, .i32⟩ : BufTy).Contents (Elt F))
    (w : (⟨S3300000, .f32⟩ : BufTy).Contents (Elt F)) (b : (⟨S40, .f32⟩ : BufTy).Contents (Elt F)) :
    (⟨S100000x40, .f32⟩ : BufTy).Contents (Elt F) :=
  addf
    (Host.scatterAdd scatter_S100000x40_S3300000x1_S3300000x40_1_0_0_1
      (broadcastInDim S100000x40 ![] bcast_S_S100000x40 (constant S_ .f32 0x00000000#32))
      (broadcastInDim S3300000x1 ![0] bcast_S3300000_S3300000x1_0 d)
      (mulf (Host.gather gather_S100000x40_S3300000x1_S3300000x40_1_0_n_n_0_1_140 h (rowOf s))
        (broadcastInDim S3300000x40 ![0, 1] bcast_S3300000x1_S3300000x40_0_1
          (broadcastInDim S3300000x1 ![0] bcast_S3300000_S3300000x1_0 w))))
    (broadcastInDim S100000x40 ![0, 1] bcast_S1x40_S100000x40_0_1 (broadcastInDim S1x40 ![1] bcast_S40_S1x40_1 b))

/-- The row maxima of `a`, started from −∞ (and compared with −∞ once more, which changes nothing). -/
def rowMax (a : (⟨S100000x40, .f32⟩ : BufTy).Contents (Elt F)) : (⟨S100000, .f32⟩ : BufTy).Contents (Elt F) :=
  maximumf (broadcastInDim S100000 ![] bcast_S_S100000 (constant S_ .f32 0xFF800000#32))
    (Host.reduce FloatOps.maximumf a (constant S_ .f32 0xFF800000#32) reducesTo_S100000x40_S100000_d1 h_S_)

/-- `a` with its row maximum subtracted from every entry of the row. -/
def shifted (a : (⟨S100000x40, .f32⟩ : BufTy).Contents (Elt F)) : (⟨S100000x40, .f32⟩ : BufTy).Contents (Elt F) :=
  subf a (broadcastInDim S100000x40 ![0, 1] bcast_S100000x1_S100000x40_0_1
    (broadcastInDim S100000x1 ![0] bcast_S100000_S100000x1_0 (rowMax a)))

/-- Row by row: z − log Σ exp z, where z is the row minus its maximum. -/
def logSoftmaxRows (a : (⟨S100000x40, .f32⟩ : BufTy).Contents (Elt F)) : (⟨S100000x40, .f32⟩ : BufTy).Contents (Elt F) :=
  subf (shifted a)
    (broadcastInDim S100000x40 ![0, 1] bcast_S100000x1_S100000x40_0_1
      (Host.log (broadcastInDim S100000x1 ![0] bcast_S100000_S100000x1_0
        (Host.reduceAdd (Host.exp (shifted a)) (constant S_ .f32 0x00000000#32) reducesTo_S100000x40_S100000_d1 h_S_))))

/-- The first layer up to its activation, given the product `h = x · W1`. -/
def hidden (h : (⟨S100000x16, .f32⟩ : BufTy).Contents (Elt F)) (e : (⟨S2x3200000, .i32⟩ : BufTy).Contents (Elt F))
    (b1 : (⟨S16, .f32⟩ : BufTy).Contents (Elt F)) : (⟨S100000x16, .f32⟩ : BufTy).Contents (Elt F) :=
  relu16 (propagate16 h (firstEnds e) (secondEnds e) (edgeWeight (firstEnds e) (secondEnds e)) b1)

/-- The second layer's output before the log-soft-max, given the product `h = hidden · W2`. -/
def logits (h : (⟨S100000x40, .f32⟩ : BufTy).Contents (Elt F)) (e : (⟨S2x3200000, .i32⟩ : BufTy).Contents (Elt F))
    (b2 : (⟨S40, .f32⟩ : BufTy).Contents (Elt F)) : (⟨S100000x40, .f32⟩ : BufTy).Contents (Elt F) :=
  propagate40 h (firstEnds e) (secondEnds e) (edgeWeight (firstEnds e) (secondEnds e)) b2

/-- The whole network. -/
def network (x : (⟨S100000x512, .f32⟩ : BufTy).Contents (Elt F)) (e : (⟨S2x3200000, .i32⟩ : BufTy).Contents (Elt F))
    (W1 : (⟨S512x16, .f32⟩ : BufTy).Contents (Elt F)) (b1 : (⟨S16, .f32⟩ : BufTy).Contents (Elt F))
    (W2 : (⟨S16x40, .f32⟩ : BufTy).Contents (Elt F)) (b2 : (⟨S40, .f32⟩ : BufTy).Contents (Elt F)) :
    (⟨S100000x40, .f32⟩ : BufTy).Contents (Elt F) :=
  logSoftmaxRows (logits
    (Host.dotGeneral dot_S100000x16_S16x40_S100000x40_1_0_0_1_n_n none
      (hidden (Host.dotGeneral dot_S100000x512_S512x16_S100000x16_1_0_0_1_n_n none x W1) e b1) W2) e b2)

end Cert.Stages

end
-- ==== Proof.HostStretches.lean ====
/-
  The kernel program's host operations, a stretch at a time.

  Between its three regions the kernel program runs the same host operations as the reference. Read at ANY contents W of
  the buffers a stretch starts from, each stretch writes a stage of Stages.lean applied to what W holds in the buffers the
  stretch reads, and leaves every buffer it does not write as W has it:
    · the first stretch writes the two columns of the edge list (with the self-loops) and the edge weights;
    · the second propagates the first product over the graph, adds the bias and rectifies;
    · the third propagates the second product and adds the bias.
  The kernel program computes the edge weights once, in the first stretch, and both later stretches read them.
-/
import proofs.«158676_j62508954026414_1_alg».proof.Proof.Gen.KernelIdeal.Launch
import proofs.«158676_j62508954026414_1_alg».proof.Proof.Gen.ReferenceIdeal
import proofs.«158676_j62508954026414_1_alg».proof.Proof.Stages
import Idealize.ShloMosaic.Lib.StableHlo.Run

noncomputable section

namespace Cert.KernelIdeal.HostStretches

open Cert.KernelIdeal Cert.KernelIdeal.Gen Idealize.ShloMosaic Idealize.ShloMosaic.TcCoe Idealize.SL.Sem Idealize.ShloMosaic.StableHlo

variable {F : FTy → Type} [FloatOps F]

/-! ## The first stretch: the edge list's two columns and the edge weights -/

set_option maxRecDepth 8192 in
set_option maxHeartbeats 4000000 in
/-- The first stretch leaves the first ends of all edges in their buffer. -/
theorem first_firstEnds (W : Valuation τ sig (Elt F)) :
    after (hostOps0_2 (F := F)) (after (hostOps0_1 (F := F)) (after (hostOps0 (F := F)) W)) (Proc.devRef .tc main_v3) = Cert.Stages.firstEnds (F := F) (W (Proc.devRef .tc main_arg1)) := by
  dsimp only [hostOps0, hostOps0_1, hostOps0_2]
  after_results_simp
  rfl

set_option maxRecDepth 8192 in
set_option maxHeartbeats 4000000 in
/-- The first stretch leaves the second ends of all edges in their buffer. -/
theorem first_secondEnds (W : Valuation τ sig (Elt F)) :
    after (hostOps0_2 (F := F)) (after (hostOps0_1 (F := F)) (after (hostOps0 (F := F)) W)) (Proc.devRef .tc main_v6) = Cert.Stages.secondEnds (F := F) (W (Proc.devRef .tc main_arg1)) := by
  dsimp only [hostOps0, hostOps0_1, hostOps0_2]
  after_results_simp
  rfl

set_option maxRecDepth 8192 in
set_option maxHeartbeats 8000000 in
/-- The first stretch leaves the edge weights: deg(s)^(-1/2) · deg(d)^(-1/2) for every edge (s, d) of the list with its
    self-loops. -/
theorem first_weights (W : Valuation τ sig (Elt F)) :
    after (hostOps0_2 (F := F)) (after (hostOps0_1 (F := F)) (after (hostOps0 (F := F)) W)) (Proc.devRef .tc main_v29)
      = Cert.Stages.edgeWeight (F := F) (Cert.Stages.firstEnds (F := F) (W (Proc.devRef .tc main_arg1))) (Cert.Stages.secondEnds (F := F) (W (Proc.devRef .tc main_arg1))) := by
  dsimp only [hostOps0, hostOps0_1, hostOps0_2]
  after_results_simp
  rfl

set_option maxRecDepth 8192 in
set_option maxHeartbeats 4000000 in
/-- The first stretch writes no argument: `main_arg0` is as it was. -/
theorem first_keeps_arg0 (W : Valuation τ sig (Elt F)) :
    after (hostOps0_2 (F := F)) (after (hostOps0_1 (F := F)) (after (hostOps0 (F := F)) W)) (Proc.devRef .tc main_arg0) = W (Proc.devRef .tc main_arg0) := by
  dsimp only [hostOps0, hostOps0_1, hostOps0_2]
  after_results_simp

set_option maxRecDepth 8192 in
set_option maxHeartbeats 4000000 in
/-- The first stretch writes no argument: `main_arg2` is as it was. -/
theorem first_keeps_arg2 (W : Valuation τ sig (Elt F)) :
    after (hostOps0_2 (F := F)) (after (hostOps0_1 (F := F)) (after (hostOps0 (F := F)) W)) (Proc.devRef .tc main_arg2) = W (Proc.devRef .tc main_arg2) := by
  dsimp only [hostOps0, hostOps0_1, hostOps0_2]
  after_results_simp

set_option maxRecDepth 8192 in
set_option maxHeartbeats 4000000 in
/-- The first stretch writes no argument: `main_arg3` is as it was. -/
theorem first_keeps_arg3 (W : Valuation τ sig (Elt F)) :
    after (hostOps0_2 (F := F)) (after (hostOps0_1 (F := F)) (after (hostOps0 (F := F)) W)) (Proc.devRef .tc main_arg3) = W (Proc.devRef .tc main_arg3) := by
  dsimp only [hostOps0, hostOps0_1, hostOps0_2]
  after_results_simp

set_option maxRecDepth 8192 in
set_option maxHeartbeats 4000000 in
/-- The first stretch writes no argument: `main_arg4` is as it was. -/
theorem first_keeps_arg4 (W : Valuation τ sig (Elt F)) :
    after (hostOps0_2 (F := F)) (after (hostOps0_1 (F := F)) (after (hostOps0 (F := F)) W)) (Proc.devRef .tc main_arg4) = W (Proc.devRef .tc main_arg4) := by
  dsimp only [hostOps0, hostOps0_1, hostOps0_2]
  after_results_simp

set_option maxRecDepth 8192 in
set_option maxHeartbeats 4000000 in
/-- The first stretch writes no argument: `main_arg5` is as it was. -/
theorem first_keeps_arg5 (W : Valuation τ sig (Elt F)) :
    after (hostOps0_2 (F := F)) (after (hostOps0_1 (F := F)) (after (hostOps0 (F := F)) W)) (Proc.devRef .tc main_arg5) = W (Proc.devRef .tc main_arg5) := by
  dsimp only [hostOps0, hostOps0_1, hostOps0_2]
  after_results_simp

/-! ## The second stretch: propagate the first product, add the bias, rectify -/

set_option maxRecDepth 8192 in
set_option maxHeartbeats 8000000 in
/-- The second stretch leaves max(0, ·) of the first product propagated over the graph plus the bias. -/
theorem second_hidden (W : Valuation τ sig (Elt F)) :
    after (hostOps1_1 (F := F)) (after (hostOps1 (F := F)) W) (Proc.devRef .tc main_v47)
      = Cert.Stages.relu16 (F := F) (Cert.Stages.propagate16 (F := F) (W (Proc.devRef .tc main_v30)) (W (Proc.devRef .tc main_v3)) (W (Proc.devRef .tc main_v6))
          (W (Proc.devRef .tc main_v29)) (W (Proc.devRef .tc main_arg3))) := by
  dsimp only [hostOps1, hostOps1_1]
  after_results_simp
  rfl

set_option maxRecDepth 8192 in
set_option maxHeartbeats 4000000 in
/-- The second stretch does not write `main_v3`. -/
theorem second_keeps_v3 (W : Valuation τ sig (Elt F)) :
    after (hostOps1_1 (F := F)) (after (hostOps1 (F := F)) W) (Proc.devRef .tc main_v3) = W (Proc.devRef .tc main_v3) := by
  dsimp only [hostOps1, hostOps1_1]
  after_results_simp

set_option maxRecDepth 8192 in
set_option maxHeartbeats 4000000 in
/-- The second stretch does not write `main_v6`. -/
theorem second_keeps_v6 (W : Valuation τ sig (Elt F)) :
    after (hostOps1_1 (F := F)) (after (hostOps1 (F := F)) W) (Proc.devRef .tc main_v6) = W (Proc.devRef .tc main_v6) := by
  dsimp only [hostOps1, hostOps1_1]
  after_results_simp

set_option maxRecDepth 8192 in
set_option maxHeartbeats 4000000 in
/-- The second stretch does not write `main_v29`. -/
theorem second_keeps_v29 (W : Valuation τ sig (Elt F)) :
    after (hostOps1_1 (F := F)) (after (hostOps1 (F := F)) W) (Proc.devRef .tc main_v29) = W (Proc.devRef .tc main_v29) := by
  dsimp only [hostOps1, hostOps1_1]
  after_results_simp

set_option maxRecDepth 8192 in
set_option maxHeartbeats 4000000 in
/-- The second stretch does not write `main_arg4`. -/
theorem second_keeps_arg4 (W : Valuation τ sig (Elt F)) :
    after (hostOps1_1 (F := F)) (after (hostOps1 (F := F)) W) (Proc.devRef .tc main_arg4) = W (Proc.devRef .tc main_arg4) := by
  dsimp only [hostOps1, hostOps1_1]
  after_results_simp

set_option maxRecDepth 8192 in
set_option maxHeartbeats 4000000 in
/-- The second stretch does not write `main_arg5`. -/
theorem second_keeps_arg5 (W : Valuation τ sig (Elt F)) :
    after (hostOps1_1 (F := F)) (after (hostOps1 (F := F)) W) (Proc.devRef .tc main_arg5) = W (Proc.devRef .tc main_arg5) := by
  dsimp only [hostOps1, hostOps1_1]
  after_results_simp

/-! ## The third stretch: propagate the second product, add the bias -/

set_option maxRecDepth 8192 in
set_option maxHeartbeats 4000000 in
/-- The third stretch: the second product propagated over the graph, plus the bias. -/
theorem third_logits (W : Valuation τ sig (Elt F)) :
    after (hostOps2 (F := F)) W (Proc.devRef .tc main_v64)
      = Cert.Stages.propagate40 (F := F) (W (Proc.devRef .tc main_v48)) (W (Proc.devRef .tc main_v3)) (W (Proc.devRef .tc main_v6))
          (W (Proc.devRef .tc main_v29)) (W (Proc.devRef .tc main_arg5)) := by
  dsimp only [hostOps2]
  after_results_simp
  rfl

end Cert.KernelIdeal.HostStretches

end
-- ==== Proof.KernelFold.lean ====
/-
  The kernel program's result, read back through its nine segments.

  Let e be the edge list, x the node features, W1, b1, W2, b2 the parameters as launched. Walking the boundary contents
  W0 … W9 of the generated frame module from the launch:
    · after the first stretch the two columns of the edge list and the edge weights are in their buffers, as functions
      of e; no argument has been written;
    · the first region leaves x · W1 in its output array (hypothesis `h0`: what the region leaves is the host's
      product of its two input arrays as the region finds them) and touches nothing but its own arrays;
    · the second stretch leaves hidden = max(0, propagate(x · W1) + b1);
    · the second region leaves hidden · W2 (hypothesis `h1`);
    · the third stretch leaves logits = propagate(hidden · W2) + b2, with the SAME edge weights, still in their buffer;
    · the third region leaves the row-wise log-soft-max of its input array (hypothesis `h2`).
  So the result buffer ends at `Stages.network x e W1 b1 W2 b2`.
  The three hypotheses are proved in the modules on the regions; stating them as hypotheses keeps this walk independent
  of how a region computes.
-/
import proofs.«158676_j62508954026414_1_alg».proof.Proof.Gen.KernelIdeal.Frame
import proofs.«158676_j62508954026414_1_alg».proof.Proof.Gen.ReferenceIdeal
import proofs.«158676_j62508954026414_1_alg».proof.Proof.HostStretches
import proofs.«158676_j62508954026414_1_alg».proof.Proof.Stages
import Idealize.ShloMosaic.PureOps.Ideal

noncomputable section

namespace Cert.KernelIdeal.Fold

open Idealize.ShloMosaic Idealize.ShloMosaic.TcCoe Idealize.SL.Sem
open Cert.KernelIdeal Cert.KernelIdeal.Gen Cert.KernelIdeal.HostStretches

variable (m : (ℓ : Loc nD τ sig) → Buf (Elt Ideal) ℓ) (ρ : Dev nD → PrngReg)

/-! ## After the first stretch (the contents the first region is entered with) -/

theorem entry0_firstEnds (c : Dev nD) :
    W3 m ρ c (Proc.devRef .tc main_v3) = Cert.Stages.firstEnds (F := Ideal) (m ((c : Thread nD τ).loc main_arg1)) :=
  first_firstEnds (W0 m ρ c)
theorem entry0_secondEnds (c : Dev nD) :
    W3 m ρ c (Proc.devRef .tc main_v6) = Cert.Stages.secondEnds (F := Ideal) (m ((c : Thread nD τ).loc main_arg1)) :=
  first_secondEnds (W0 m ρ c)
theorem entry0_weights (c : Dev nD) :
    W3 m ρ c (Proc.devRef .tc main_v29)
      = Cert.Stages.edgeWeight (F := Ideal) (Cert.Stages.firstEnds (F := Ideal) (m ((c : Thread nD τ).loc main_arg1))) (Cert.Stages.secondEnds (F := Ideal) (m ((c : Thread nD τ).loc main_arg1))) :=
  first_weights (W0 m ρ c)
theorem entry0_arg0 (c : Dev nD) : W3 m ρ c (Proc.devRef .tc main_arg0) = (m ((c : Thread nD τ).loc main_arg0)) := first_keeps_arg0 (W0 m ρ c)
theorem entry0_arg2 (c : Dev nD) : W3 m ρ c (Proc.devRef .tc main_arg2) = (m ((c : Thread nD τ).loc main_arg2)) := first_keeps_arg2 (W0 m ρ c)
theorem entry0_arg3 (c : Dev nD) : W3 m ρ c (Proc.devRef .tc main_arg3) = (m ((c : Thread nD τ).loc main_arg3)) := first_keeps_arg3 (W0 m ρ c)
theorem entry0_arg4 (c : Dev nD) : W3 m ρ c (Proc.devRef .tc main_arg4) = (m ((c : Thread nD τ).loc main_arg4)) := first_keeps_arg4 (W0 m ρ c)
theorem entry0_arg5 (c : Dev nD) : W3 m ρ c (Proc.devRef .tc main_arg5) = (m ((c : Thread nD τ).loc main_arg5)) := first_keeps_arg5 (W0 m ρ c)

/-! ## After the first region -/

section
variable (h0 : ∀ (V : (c : Dev nD) → (b : Ref sig .tc) → Buf (Elt Ideal) ((c : Thread nD τ).loc b)) (c : Dev nD),
    (dat0 (F := Ideal) V c).arrAt 2 cfg0.N = Host.dotGeneral (F := Ideal) (φ₁ := .f32) (φ₂ := .f32) Cert.ReferenceIdeal.dot_S100000x512_S512x16_S100000x16_1_0_0_1_n_n none (V c main_arg0) (V c main_arg2))
include h0

/-- The first region's output array holds x · W1. -/
theorem exit0_product (c : Dev nD) :
    W4 m ρ c (Proc.devRef .tc main_v30) = Host.dotGeneral (F := Ideal) (φ₁ := .f32) (φ₂ := .f32) Cert.ReferenceIdeal.dot_S100000x512_S512x16_S100000x16_1_0_0_1_n_n none (m ((c : Thread nD τ).loc main_arg0)) (m ((c : Thread nD τ).loc main_arg2)) := by
  refine (W4_arr m ρ c 2).trans ((h0 (V3 m ρ) c).trans ?_)
  rw [show V3 m ρ c main_arg0 = (m ((c : Thread nD τ).loc main_arg0)) from entry0_arg0 m ρ c, show V3 m ρ c main_arg2 = (m ((c : Thread nD τ).loc main_arg2)) from entry0_arg2 m ρ c]
end

theorem exit0_firstEnds (c : Dev nD) :
    W4 m ρ c (Proc.devRef .tc main_v3) = Cert.Stages.firstEnds (F := Ideal) (m ((c : Thread nD τ).loc main_arg1)) :=
  (W4_of_ne m ρ c main_v3 (by decide)).trans (entry0_firstEnds m ρ c)
theorem exit0_secondEnds (c : Dev nD) :
    W4 m ρ c (Proc.devRef .tc main_v6) = Cert.Stages.secondEnds (F := Ideal) (m ((c : Thread nD τ).loc main_arg1)) :=
  (W4_of_ne m ρ c main_v6 (by decide)).trans (entry0_secondEnds m ρ c)
theorem exit0_weights (c : Dev nD) :
    W4 m ρ c (Proc.devRef .tc main_v29)
      = Cert.Stages.edgeWeight (F := Ideal) (Cert.Stages.firstEnds (F := Ideal) (m ((c : Thread nD τ).loc main_arg1))) (Cert.Stages.secondEnds (F := Ideal) (m ((c : Thread nD τ).loc main_arg1))) :=
  (W4_of_ne m ρ c main_v29 (by decide)).trans (entry0_weights m ρ c)
theorem exit0_arg3 (c : Dev nD) : W4 m ρ c (Proc.devRef .tc main_arg3) = (m ((c : Thread nD τ).loc main_arg3)) :=
  (W4_of_ne m ρ c main_arg3 (by decide)).trans (entry0_arg3 m ρ c)
theorem exit0_arg4 (c : Dev nD) : W4 m ρ c (Proc.devRef .tc main_arg4) = (m ((c : Thread nD τ).loc main_arg4)) :=
  (W4_of_ne m ρ c main_arg4 (by decide)).trans (entry0_arg4 m ρ c)
theorem exit0_arg5 (c : Dev nD) : W4 m ρ c (Proc.devRef .tc main_arg5) = (m ((c : Thread nD τ).loc main_arg5)) :=
  (W4_of_ne m ρ c main_arg5 (by decide)).trans (entry0_arg5 m ρ c)

/-! ## After the second stretch (the contents the second region is entered with) -/

section
variable (h0 : ∀ (V : (c : Dev nD) → (b : Ref sig .tc) → Buf (Elt Ideal) ((c : Thread nD τ).loc b)) (c : Dev nD),
    (dat0 (F := Ideal) V c).arrAt 2 cfg0.N = Host.dotGeneral (F := Ideal) (φ₁ := .f32) (φ₂ := .f32) Cert.ReferenceIdeal.dot_S100000x512_S512x16_S100000x16_1_0_0_1_n_n none (V c main_arg0) (V c main_arg2))
include h0

/-- The hidden layer: max(0, propagate(x · W1) + b1). -/
theorem entry1_hidden (c : Dev nD) :
    W6 m ρ c (Proc.devRef .tc main_v47)
      = Cert.Stages.hidden (F := Ideal) (Host.dotGeneral (F := Ideal) (φ₁ := .f32) (φ₂ := .f32) Cert.ReferenceIdeal.dot_S100000x512_S512x16_S100000x16_1_0_0_1_n_n none (m ((c : Thread nD τ).loc main_arg0)) (m ((c : Thread nD τ).loc main_arg2))) (m ((c : Thread nD τ).loc main_arg1)) (m ((c : Thread nD τ).loc main_arg3)) := by
  refine (second_hidden (W4 m ρ c)).trans ?_
  rw [exit0_product m ρ h0 c, exit0_firstEnds m ρ c, exit0_secondEnds m ρ c, exit0_weights m ρ c, exit0_arg3 m ρ c]
  rfl
end

theorem entry1_firstEnds (c : Dev nD) :
    W6 m ρ c (Proc.devRef .tc main_v3) = Cert.Stages.firstEnds (F := Ideal) (m ((c : Thread nD τ).loc main_arg1)) :=
  (second_keeps_v3 (W4 m ρ c)).trans (exit0_firstEnds m ρ c)
theorem entry1_secondEnds (c : Dev nD) :
    W6 m ρ c (Proc.devRef .tc main_v6) = Cert.Stages.secondEnds (F := Ideal) (m ((c : Thread nD τ).loc main_arg1)) :=
  (second_keeps_v6 (W4 m ρ c)).trans (exit0_secondEnds m ρ c)
theorem entry1_weights (c : Dev nD) :
    W6 m ρ c (Proc.devRef .tc main_v29)
      = Cert.Stages.edgeWeight (F := Ideal) (Cert.Stages.firstEnds (F := Ideal) (m ((c : Thread nD τ).loc main_arg1))) (Cert.Stages.secondEnds (F := Ideal) (m ((c : Thread nD τ).loc main_arg1))) :=
  (second_keeps_v29 (W4 m ρ c)).trans (exit0_weights m ρ c)
theorem entry1_arg4 (c : Dev nD) : W6 m ρ c (Proc.devRef .tc main_arg4) = (m ((c : Thread nD τ).loc main_arg4)) :=
  (second_keeps_arg4 (W4 m ρ c)).trans (exit0_arg4 m ρ c)
theorem entry1_arg5 (c : Dev nD) : W6 m ρ c (Proc.devRef .tc main_arg5) = (m ((c : Thread nD τ).loc main_arg5)) :=
  (second_keeps_arg5 (W4 m ρ c)).trans (exit0_arg5 m ρ c)

/-! ## After the second region, the third stretch and the third region -/

section
variable (h0 : ∀ (V : (c : Dev nD) → (b : Ref sig .tc) → Buf (Elt Ideal) ((c : Thread nD τ).loc b)) (c : Dev nD),
    (dat0 (F := Ideal) V c).arrAt 2 cfg0.N = Host.dotGeneral (F := Ideal) (φ₁ := .f32) (φ₂ := .f32) Cert.ReferenceIdeal.dot_S100000x512_S512x16_S100000x16_1_0_0_1_n_n none (V c main_arg0) (V c main_arg2))
  (h1 : ∀ (V : (c : Dev nD) → (b : Ref sig .tc) → Buf (Elt Ideal) ((c : Thread nD τ).loc b)) (c : Dev nD),
    (dat1 (F := Ideal) V c).arrAt 2 cfg1.N = Host.dotGeneral (F := Ideal) (φ₁ := .f32) (φ₂ := .f32) Cert.ReferenceIdeal.dot_S100000x16_S16x40_S100000x40_1_0_0_1_n_n none (V c main_v47) (V c main_arg4))
  (h2 : ∀ (V : (c : Dev nD) → (b : Ref sig .tc) → Buf (Elt Ideal) ((c : Thread nD τ).loc b)) (c : Dev nD),
    (dat2 (F := Ideal) V c).arrAt 1 cfg2.N = Cert.Stages.logSoftmaxRows (F := Ideal) (V c main_v64))

include h0 h1 in
/-- The second region's output array holds hidden · W2. -/
theorem exit1_product (c : Dev nD) :
    W7 m ρ c (Proc.devRef .tc main_v48)
      = Host.dotGeneral (F := Ideal) (φ₁ := .f32) (φ₂ := .f32) Cert.ReferenceIdeal.dot_S100000x16_S16x40_S100000x40_1_0_0_1_n_n none (Cert.Stages.hidden (F := Ideal) (Host.dotGeneral (F := Ideal) (φ₁ := .f32) (φ₂ := .f32) Cert.ReferenceIdeal.dot_S100000x512_S512x16_S100000x16_1_0_0_1_n_n none (m ((c : Thread nD τ).loc main_arg0)) (m ((c : Thread nD τ).loc main_arg2))) (m ((c : Thread nD τ).loc main_arg1)) (m ((c : Thread nD τ).loc main_arg3))) (m ((c : Thread nD τ).loc main_arg4)) := by
  refine (W7_arr m ρ c 2).trans ((h1 (V6 m ρ) c).trans ?_)
  rw [show V6 m ρ c main_v47 = _ from entry1_hidden m ρ h0 c, show V6 m ρ c main_arg4 = (m ((c : Thread nD τ).loc main_arg4)) from entry1_arg4 m ρ c]

include h0 h1 in
/-- The logits: propagate(hidden · W2) + b2, with the edge weights the first stretch computed. -/
theorem entry2_logits (c : Dev nD) :
    W8 m ρ c (Proc.devRef .tc main_v64)
      = Cert.Stages.logits (F := Ideal)
          (Host.dotGeneral (F := Ideal) (φ₁ := .f32) (φ₂ := .f32) Cert.ReferenceIdeal.dot_S100000x16_S16x40_S100000x40_1_0_0_1_n_n none (Cert.Stages.hidden (F := Ideal) (Host.dotGeneral (F := Ideal) (φ₁ := .f32) (φ₂ := .f32) Cert.ReferenceIdeal.dot_S100000x512_S512x16_S100000x16_1_0_0_1_n_n none (m ((c : Thread nD τ).loc main_arg0)) (m ((c : Thread nD τ).loc main_arg2))) (m ((c : Thread nD τ).loc main_arg1)) (m ((c : Thread nD τ).loc main_arg3))) (m ((c : Thread nD τ).loc main_arg4)))
          (m ((c : Thread nD τ).loc main_arg1)) (m ((c : Thread nD τ).loc main_arg5)) := by
  refine (third_logits (W7 m ρ c)).trans ?_
  rw [exit1_product m ρ h0 h1 c,
    (W7_of_ne m ρ c main_v3 (by decide)).trans (entry1_firstEnds m ρ c),
    (W7_of_ne m ρ c main_v6 (by decide)).trans (entry1_secondEnds m ρ c),
    (W7_of_ne m ρ c main_v29 (by decide)).trans (entry1_weights m ρ c),
    (W7_of_ne m ρ c main_arg5 (by decide)).trans (entry1_arg5 m ρ c)]
  rfl

include h0 h1 h2 in
/-- THE RESULT: the last boundary's contents at the result buffer are the network of the launch arguments. -/
theorem result_eq (c : Dev nD) :
    W9 m ρ c (Proc.devRef .tc main_v65)
      = Cert.Stages.network (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 1).trans ((h2 (V8 m ρ) c).trans ?_)
  rw [show V8 m ρ c main_v64 = _ from entry2_logits m ρ h0 h1 c]
  rfl
end

end Cert.KernelIdeal.Fold

end
-- ==== Proof.LibCastBack.lean ====
/-
  A general fact about transport along an equation of types: carrying a value from a type to an equal type and back
  gives the value again, whatever the two types are and however the two equations were obtained. Cancelling such a pair
  this way never has to compare the two types.
-/

/-- A value carried along `h : α = β` and back along any `h' : β = α` is itself. -/
theorem cast_cast_cancel {α β : Sort _} (h : α = β) (h' : β = α) (v : α) : cast h' (cast h v) = v := by
  subst h
  rfl
-- ==== Proof.RefStretches.lean ====
/-
  The reference program's host operations, in five parts.

  The reference is one straight line of 131 host operations. Read at ANY contents W of the buffers a part starts from,
  each part writes stages of Stages.lean applied to what W holds in the buffers the part reads, and leaves every buffer
  it does not write as W has it:
    · the first 41 operations write the two columns of the edge list, the product x · W1 and the edge weights;
    · the next 23 propagate that product, add the bias, rectify, and multiply by W2;
    · the next 33 compute the edge weights a second time, from the same two columns;
    · the next 19 propagate the second product and add the bias;
    · the last 15 are the row-wise log-soft-max.
-/
import proofs.«158676_j62508954026414_1_alg».proof.Proof.Gen.ReferenceIdeal
import proofs.«158676_j62508954026414_1_alg».proof.Proof.Stages
import proofs.«158676_j62508954026414_1_alg».proof.Proof.LibCastBack
import Idealize.ShloMosaic.Lib.StableHlo.Run

noncomputable section

namespace Cert.ReferenceIdeal.Stretches

open Cert.ReferenceIdeal Cert.ReferenceIdeal.Gen Idealize.ShloMosaic Idealize.ShloMosaic.TcCoe Idealize.SL.Sem Idealize.ShloMosaic.StableHlo

variable {F : FTy → Type} [FloatOps F]

/-- The first 41 operations: the two columns of the edge list, the first product x · W1, and the edge weights. -/
abbrev opsFirst : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg2 main_v7 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- The next 23: the first product propagated, biased and rectified, then the second product. -/
abbrev opsHidden : List (HloOp τ sig (Elt F)) :=
  [ nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v7 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- The next 33: the edge weights once more (the same operations on the same two columns). -/
abbrev opsWeightsAgain : List (HloOp τ sig (Elt F)) :=
  [ nullary main_cst_9 (constant S_ .f32 0x3F800000#32),
    unary main_cst_9 main_v49 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v49 main_v52 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S3300000 ![] bcast_S_S3300000 : (⟨S_, .i32⟩ : BufTy).Contents (Elt F) → (⟨S3300000, .i32⟩ : BufTy).Contents (Elt F)),
    binary main_v3 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v59 (broadcastInDim S3300000 ![] bcast_S_S3300000 : (⟨S_, .i32⟩ : BufTy).Contents (Elt F) → (⟨S3300000, .i32⟩ : BufTy).Contents (Elt F)),
    binary main_v3 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v3 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v64 (broadcastInDim S3300000 ![] bcast_S_S3300000 : (⟨S_, .i32⟩ : BufTy).Contents (Elt F) → (⟨S3300000, .i32⟩ : BufTy).Contents (Elt F)),
    binary main_v6 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v66 (broadcastInDim S3300000 ![] bcast_S_S3300000 : (⟨S_, .i32⟩ : BufTy).Contents (Elt F) → (⟨S3300000, .i32⟩ : BufTy).Contents (Elt F)),
    binary main_v6 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v6 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v56 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v63 main_v70 main_v71 (mulf : (⟨S3300000, .f32⟩ : BufTy).Contents (Elt F) → (⟨S3300000, .f32⟩ : BufTy).Contents (Elt F) → (⟨S3300000, .f32⟩ : BufTy).Contents (Elt F)) ]

/-- The next 19: the second product propagated and biased. -/
abbrev opsLogits : List (HloOp τ sig (Elt F)) :=
  [ nullary main_c_17 (constantI S_ 32 0#32),
    unary main_c_17 main_v72 (broadcastInDim S3300000 ![] bcast_S_S3300000 : (⟨S_, .i32⟩ : BufTy).Contents (Elt F) → (⟨S3300000, .i32⟩ : BufTy).Contents (Elt F)),
    binary main_v3 main_v72 main_v73 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v74 (broadcastInDim S3300000 ![] bcast_S_S3300000 : (⟨S_, .i32⟩ : BufTy).Contents (Elt F) → (⟨S3300000, .i32⟩ : BufTy).Contents (Elt F)),
    binary main_v3 main_v74 main_v75 (addi : (⟨S3300000, .i32⟩ : BufTy).Contents (Elt F) → (⟨S3300000, .i32⟩ : BufTy).Contents (Elt F) → (⟨S3300000, .i32⟩ : BufTy).Contents (Elt F)),
    ternary main_v73 main_v75 main_v3 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v76 main_v77 (broadcastInDim S3300000x1 ![0] bcast_S3300000_S3300000x1_0 : (⟨S3300000, .i32⟩ : BufTy).Contents (Elt F) → (⟨S3300000x1, .i32⟩ : BufTy).Contents (Elt F)),
    binary main_v48 main_v77 main_v78 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v71 main_v79 (broadcastInDim S3300000x1 ![0] bcast_S3300000_S3300000x1_0 : (⟨S3300000, .f32⟩ : BufTy).Contents (Elt F) → (⟨S3300000x1, .f32⟩ : BufTy).Contents (Elt F)),
    unary main_v79 main_v80 (broadcastInDim S3300000x40 ![0, 1] bcast_S3300000x1_S3300000x40_0_1 : (⟨S3300000x1, .f32⟩ : BufTy).Contents (Elt F) → (⟨S3300000x40, .f32⟩ : BufTy).Contents (Elt F)),
    binary main_v78 main_v80 main_v81 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v82 (broadcastInDim S100000x40 ![] bcast_S_S100000x40 : (⟨S_, .f32⟩ : BufTy).Contents (Elt F) → (⟨S100000x40, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v85 (broadcastInDim S1x40 ![1] bcast_S40_S1x40_1 : (⟨S40, .f32⟩ : BufTy).Contents (Elt F) → (⟨S1x40, .f32⟩ : BufTy).Contents (Elt F)),
    unary main_v85 main_v86 (broadcastInDim S100000x40 ![0, 1] bcast_S1x40_S100000x40_0_1 : (⟨S1x40, .f32⟩ : BufTy).Contents (Elt F) → (⟨S100000x40, .f32⟩ : BufTy).Contents (Elt F)),
    binary main_v84 main_v86 main_v87 (addf : (⟨S100000x40, .f32⟩ : BufTy).Contents (Elt F) → (⟨S100000x40, .f32⟩ : BufTy).Contents (Elt F) → (⟨S100000x40, .f32⟩ : BufTy).Contents (Elt F)) ]

/-- The last 15: the row-wise log-soft-max. -/
abbrev opsLogSoftmax : List (HloOp τ sig (Elt F)) :=
  [ TRef.nullary (TRef.of (T := ⟨S_, .f32⟩) main_call3_cst) (constant S_ .f32 0xFF800000#32),
    TRef.binary (TRef.of (T := ⟨S100000x40, .f32⟩) main_v87) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v87) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v88) subf ]

set_option maxRecDepth 16384 in
set_option maxHeartbeats 8000000 in
/-- The first part leaves the first ends of all edges. -/
theorem first_firstEnds (W : Valuation τ sig (Elt F)) :
    after (opsFirst (F := F)) W (Proc.devRef .tc main_v3)
      = Cert.Stages.firstEnds (F := F) (W (Proc.devRef .tc main_arg1)) := by
  dsimp only [opsFirst]
  after_results_simp
  rfl

set_option maxRecDepth 16384 in
set_option maxHeartbeats 8000000 in
/-- The first part leaves the second ends of all edges. -/
theorem first_secondEnds (W : Valuation τ sig (Elt F)) :
    after (opsFirst (F := F)) W (Proc.devRef .tc main_v6)
      = Cert.Stages.secondEnds (F := F) (W (Proc.devRef .tc main_arg1)) := by
  dsimp only [opsFirst]
  after_results_simp
  rfl

set_option maxRecDepth 16384 in
set_option maxHeartbeats 8000000 in
/-- The first part leaves x · W1. -/
theorem first_product (W : Valuation τ sig (Elt F)) :
    after (opsFirst (F := F)) W (Proc.devRef .tc main_v7)
      = Host.dotGeneral (F := F) (φ₁ := .f32) (φ₂ := .f32) dot_S100000x512_S512x16_S100000x16_1_0_0_1_n_n none (W (Proc.devRef .tc main_arg0)) (W (Proc.devRef .tc main_arg2)) := by
  dsimp only [opsFirst]
  after_results_simp

set_option maxRecDepth 16384 in
set_option maxHeartbeats 16000000 in
/-- The first part leaves the edge weights. -/
theorem first_weights (W : Valuation τ sig (Elt F)) :
    after (opsFirst (F := F)) W (Proc.devRef .tc main_v30)
      = Cert.Stages.edgeWeight (F := F) (Cert.Stages.firstEnds (F := F) (W (Proc.devRef .tc main_arg1))) (Cert.Stages.secondEnds (F := F) (W (Proc.devRef .tc main_arg1))) := by
  dsimp only [opsFirst]
  after_results_simp
  rfl

set_option maxRecDepth 16384 in
set_option maxHeartbeats 8000000 in
/-- The first part does not write `main_arg3`. -/
theorem first_keeps_arg3 (W : Valuation τ sig (Elt F)) :
    after (opsFirst (F := F)) W (Proc.devRef .tc main_arg3) = W (Proc.devRef .tc main_arg3) := by
  dsimp only [opsFirst]
  after_results_simp

set_option maxRecDepth 16384 in
set_option maxHeartbeats 8000000 in
/-- The first part does not write `main_arg4`. -/
theorem first_keeps_arg4 (W : Valuation τ sig (Elt F)) :
    after (opsFirst (F := F)) W (Proc.devRef .tc main_arg4) = W (Proc.devRef .tc main_arg4) := by
  dsimp only [opsFirst]
  after_results_simp

set_option maxRecDepth 16384 in
set_option maxHeartbeats 8000000 in
/-- The first part does not write `main_arg5`. -/
theorem first_keeps_arg5 (W : Valuation τ sig (Elt F)) :
    after (opsFirst (F := F)) W (Proc.devRef .tc main_arg5) = W (Proc.devRef .tc main_arg5) := by
  dsimp only [opsFirst]
  after_results_simp

set_option maxRecDepth 16384 in
set_option maxHeartbeats 16000000 in
/-- The second part leaves hidden · W2, hidden = max(0, propagate(first product) + b1). -/
theorem hidden_product (W : Valuation τ sig (Elt F)) :
    after (opsHidden (F := F)) W (Proc.devRef .tc main_v48)
      = Host.dotGeneral (F := F) (φ₁ := .f32) (φ₂ := .f32) dot_S100000x16_S16x40_S100000x40_1_0_0_1_n_n none (Cert.Stages.relu16 (F := F) (Cert.Stages.propagate16 (F := F) (W (Proc.devRef .tc main_v7)) (W (Proc.devRef .tc main_v3)) (W (Proc.devRef .tc main_v6)) (W (Proc.devRef .tc main_v30)) (W (Proc.devRef .tc main_arg3)))) (W (Proc.devRef .tc main_arg4)) := by
  dsimp only [opsHidden]
  after_results_simp
  rfl

set_option maxRecDepth 16384 in
set_option maxHeartbeats 8000000 in
/-- The second part does not write `main_v3`. -/
theorem hidden_keeps_v3 (W : Valuation τ sig (Elt F)) :
    after (opsHidden (F := F)) W (Proc.devRef .tc main_v3) = W (Proc.devRef .tc main_v3) := by
  dsimp only [opsHidden]
  after_results_simp

set_option maxRecDepth 16384 in
set_option maxHeartbeats 8000000 in
/-- The second part does not write `main_v6`. -/
theorem hidden_keeps_v6 (W : Valuation τ sig (Elt F)) :
    after (opsHidden (F := F)) W (Proc.devRef .tc main_v6) = W (Proc.devRef .tc main_v6) := by
  dsimp only [opsHidden]
  after_results_simp

set_option maxRecDepth 16384 in
set_option maxHeartbeats 8000000 in
/-- The second part does not write `main_arg5`. -/
theorem hidden_keeps_arg5 (W : Valuation τ sig (Elt F)) :
    after (opsHidden (F := F)) W (Proc.devRef .tc main_arg5) = W (Proc.devRef .tc main_arg5) := by
  dsimp only [opsHidden]
  after_results_simp

set_option maxRecDepth 16384 in
set_option maxHeartbeats 16000000 in
/-- The third part leaves the edge weights again: the same function of the same two columns. -/
theorem again_weights (W : Valuation τ sig (Elt F)) :
    after (opsWeightsAgain (F := F)) W (Proc.devRef .tc main_v71)
      = Cert.Stages.edgeWeight (F := F) (W (Proc.devRef .tc main_v3)) (W (Proc.devRef .tc main_v6)) := by
  dsimp only [opsWeightsAgain]
  after_results_simp
  rfl

set_option maxRecDepth 16384 in
set_option maxHeartbeats 8000000 in
/-- The third part does not write `main_v48`. -/
theorem again_keeps_v48 (W : Valuation τ sig (Elt F)) :
    after (opsWeightsAgain (F := F)) W (Proc.devRef .tc main_v48) = W (Proc.devRef .tc main_v48) := by
  dsimp only [opsWeightsAgain]
  after_results_simp

set_option maxRecDepth 16384 in
set_option maxHeartbeats 8000000 in
/-- The third part does not write `main_v3`. -/
theorem again_keeps_v3 (W : Valuation τ sig (Elt F)) :
    after (opsWeightsAgain (F := F)) W (Proc.devRef .tc main_v3) = W (Proc.devRef .tc main_v3) := by
  dsimp only [opsWeightsAgain]
  after_results_simp

set_option maxRecDepth 16384 in
set_option maxHeartbeats 8000000 in
/-- The third part does not write `main_v6`. -/
theorem again_keeps_v6 (W : Valuation τ sig (Elt F)) :
    after (opsWeightsAgain (F := F)) W (Proc.devRef .tc main_v6) = W (Proc.devRef .tc main_v6) := by
  dsimp only [opsWeightsAgain]
  after_results_simp

set_option maxRecDepth 16384 in
set_option maxHeartbeats 8000000 in
/-- The third part does not write `main_arg5`. -/
theorem again_keeps_arg5 (W : Valuation τ sig (Elt F)) :
    after (opsWeightsAgain (F := F)) W (Proc.devRef .tc main_arg5) = W (Proc.devRef .tc main_arg5) := by
  dsimp only [opsWeightsAgain]
  after_results_simp

set_option maxRecDepth 16384 in
set_option maxHeartbeats 8000000 in
/-- The fourth part leaves propagate(second product) + b2. -/
theorem logits_value (W : Valuation τ sig (Elt F)) :
    after (opsLogits (F := F)) W (Proc.devRef .tc main_v87)
      = Cert.Stages.propagate40 (F := F) (W (Proc.devRef .tc main_v48)) (W (Proc.devRef .tc main_v3)) (W (Proc.devRef .tc main_v6)) (W (Proc.devRef .tc main_v71)) (W (Proc.devRef .tc main_arg5)) := by
  dsimp only [opsLogits]
  after_results_simp
  rfl

set_option maxRecDepth 16384 in
set_option maxHeartbeats 8000000 in
/-- The last part leaves the row-wise log-soft-max of the logits. -/
theorem logSoftmax_value (W : Valuation τ sig (Elt F)) :
    after (opsLogSoftmax (F := F)) W (Proc.devRef .tc main_v88)
      = Cert.Stages.logSoftmaxRows (F := F) (W (Proc.devRef .tc main_v87)) := by
  dsimp only [opsLogSoftmax]
  -- the stage is named while the operations' results are rewritten, and compared with what is left only at the end
  generalize hR : Cert.Stages.logSoftmaxRows (F := F) (W (Proc.devRef .tc main_v87)) = R
  after_results
  refine Eq.trans ?_ hR
  unfold Cert.Stages.logSoftmaxRows Cert.Stages.shifted Cert.Stages.rowMax
  -- the called function's operations carry each intermediate value to its buffer's own type and back: the identity
  simp only [TRef.toBuf, TRef.ofBuf, cast_cast_cancel]
  rfl

end Cert.ReferenceIdeal.Stretches

end
-- ==== Proof.LibHostFold.lean ====
/-
  A general fact about straight lines of host operations: the contents after two lines run one after the other are
  the contents after the second, started from the contents after the first. It lets a long line be read a stretch at a
  time, each stretch at whatever contents the earlier ones left.
-/
import Idealize.ShloMosaic.Lib.StableHlo.Run

namespace Idealize.ShloMosaic.StableHlo

variable {τ : Topo} {sig : RefSig} {Val : EltTy → Type}

/-- The fold of the operations' results over a concatenation is the fold over the second part of the fold over the
    first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Idealize.ShloMosaic.StableHlo
-- ==== Proof.RefRun.lean ====
/-
  The reference program's run, read back.

  The reference is a straight line of 131 host operations (the operations of the functions it calls standing at their
  call sites). Run from any memory, every weakly fair execution ends with each buffer at the fold of the operations'
  results over the launch contents. Reading that fold at the result buffer, operation by operation, gives the network of
  Stages.lean applied to the six argument arrays: the edge ends, the edge weights, x · W1 propagated and rectified, that
  times W2 propagated again (the reference recomputes the edge weights for the second layer: the same function of the
  same edge list), and the row-wise log-soft-max. The argument buffers are written by no operation.
-/
import proofs.«158676_j62508954026414_1_alg».proof.Proof.Gen.ReferenceIdeal
import proofs.«158676_j62508954026414_1_alg».proof.Proof.Stages
import proofs.«158676_j62508954026414_1_alg».proof.Proof.RefStretches
import proofs.«158676_j62508954026414_1_alg».proof.Proof.LibHostFold
import Idealize.ShloMosaic.Lib.StableHlo.Run

noncomputable section

namespace Cert.ReferenceIdeal.HandRun

open Cert.ReferenceIdeal Cert.ReferenceIdeal.Gen Cert.ReferenceIdeal.Stretches Idealize.ShloMosaic Idealize.ShloMosaic.TcCoe Idealize.SL.Sem Idealize.ShloMosaic.StableHlo

variable {F : FTy → Type} [FloatOps F]

/-- @main's 131 operations, in order (a called function's operations stand in its call's place). -/
abbrev ops : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg0 main_arg2 main_v7 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v3 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v3 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v3 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v6 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v6 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v6 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v31 (broadcastInDim S3300000 ![] bcast_S_S3300000 : (⟨S_, .i32⟩ : BufTy).Contents (Elt F) → (⟨S3300000, .i32⟩ : BufTy).Contents (Elt F)),
    binary main_v3 main_v31 main_v32 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (addi : (⟨S3300000, .i32⟩ : BufTy).Contents (Elt F) → (⟨S3300000, .i32⟩ : BufTy).Contents (Elt F) → (⟨S3300000, .i32⟩ : BufTy).Contents (Elt F)),
    ternary main_v32 main_v34 main_v3 main_v35 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v35 main_v36 (broadcastInDim S3300000x1 ![0] bcast_S3300000_S3300000x1_0 : (⟨S3300000, .i32⟩ : BufTy).Contents (Elt F) → (⟨S3300000x1, .i32⟩ : BufTy).Contents (Elt F)),
    binary main_v7 main_v36 main_v37 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v30 main_v38 (broadcastInDim S3300000x1 ![0] bcast_S3300000_S3300000x1_0 : (⟨S3300000, .f32⟩ : BufTy).Contents (Elt F) → (⟨S3300000x1, .f32⟩ : BufTy).Contents (Elt F)),
    unary main_v38 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v37 main_v39 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg4 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)),
    nullary main_cst_9 (constant S_ .f32 0x3F800000#32),
    unary main_cst_9 main_v49 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v50 (broadcastInDim S100000 ![] bcast_S_S100000 : (⟨S_, .f32⟩ : BufTy).Contents (Elt F) → (⟨S100000, .f32⟩ : BufTy).Contents (Elt F)),
    unary main_v6 main_v51 (broadcastInDim S3300000x1 ![0] bcast_S3300000_S3300000x1_0 : (⟨S3300000, .i32⟩ : BufTy).Contents (Elt F) → (⟨S3300000x1, .i32⟩ : BufTy).Contents (Elt F)),
    ternary main_v50 main_v51 main_v49 main_v52 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v53 (broadcastInDim S100000 ![] bcast_S_S100000 : (⟨S_, .f32⟩ : BufTy).Contents (Elt F) → (⟨S100000, .f32⟩ : BufTy).Contents (Elt F)),
    binary main_v52 main_v53 main_v54 (cmpf .ogt : (⟨S100000, .f32⟩ : BufTy).Contents (Elt F) → (⟨S100000, .f32⟩ : BufTy).Contents (Elt F) → (⟨S100000, .i1⟩ : BufTy).Contents (Elt F)),
    unary main_v52 main_v55 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v54) (TRef.of (T := ⟨S100000, .f32⟩) main_v55) (TRef.of (T := ⟨S100000, .f32⟩) main_call2_v1) (TRef.of (T := ⟨S100000, .f32⟩) main_v56) select,
    nullary main_c_13 (constantI S_ 32 0#32),
    unary main_c_13 main_v57 (broadcastInDim S3300000 ![] bcast_S_S3300000 : (⟨S_, .i32⟩ : BufTy).Contents (Elt F) → (⟨S3300000, .i32⟩ : BufTy).Contents (Elt F)),
    binary main_v3 main_v57 main_v58 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v59 (broadcastInDim S3300000 ![] bcast_S_S3300000 : (⟨S_, .i32⟩ : BufTy).Contents (Elt F) → (⟨S3300000, .i32⟩ : BufTy).Contents (Elt F)),
    binary main_v3 main_v59 main_v60 (addi : (⟨S3300000, .i32⟩ : BufTy).Contents (Elt F) → (⟨S3300000, .i32⟩ : BufTy).Contents (Elt F) → (⟨S3300000, .i32⟩ : BufTy).Contents (Elt F)),
    ternary main_v58 main_v60 main_v3 main_v61 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v61 main_v62 (broadcastInDim S3300000x1 ![0] bcast_S3300000_S3300000x1_0 : (⟨S3300000, .i32⟩ : BufTy).Contents (Elt F) → (⟨S3300000x1, .i32⟩ : BufTy).Contents (Elt F)),
    binary main_v56 main_v62 main_v63 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v64 (broadcastInDim S3300000 ![] bcast_S_S3300000 : (⟨S_, .i32⟩ : BufTy).Contents (Elt F) → (⟨S3300000, .i32⟩ : BufTy).Contents (Elt F)),
    binary main_v6 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v66 (broadcastInDim S3300000 ![] bcast_S_S3300000 : (⟨S_, .i32⟩ : BufTy).Contents (Elt F) → (⟨S3300000, .i32⟩ : BufTy).Contents (Elt F)),
    binary main_v6 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v6 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v56 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v63 main_v70 main_v71 (mulf : (⟨S3300000, .f32⟩ : BufTy).Contents (Elt F) → (⟨S3300000, .f32⟩ : BufTy).Contents (Elt F) → (⟨S3300000, .f32⟩ : BufTy).Contents (Elt F)),
    nullary main_c_17 (constantI S_ 32 0#32),
    unary main_c_17 main_v72 (broadcastInDim S3300000 ![] bcast_S_S3300000 : (⟨S_, .i32⟩ : BufTy).Contents (Elt F) → (⟨S3300000, .i32⟩ : BufTy).Contents (Elt F)),
    binary main_v3 main_v72 main_v73 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v74 (broadcastInDim S3300000 ![] bcast_S_S3300000 : (⟨S_, .i32⟩ : BufTy).Contents (Elt F) → (⟨S3300000, .i32⟩ : BufTy).Contents (Elt F)),
    binary main_v3 main_v74 main_v75 (addi : (⟨S3300000, .i32⟩ : BufTy).Contents (Elt F) → (⟨S3300000, .i32⟩ : BufTy).Contents (Elt F) → (⟨S3300000, .i32⟩ : BufTy).Contents (Elt F)),
    ternary main_v73 main_v75 main_v3 main_v76 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v76 main_v77 (broadcastInDim S3300000x1 ![0] bcast_S3300000_S3300000x1_0 : (⟨S3300000, .i32⟩ : BufTy).Contents (Elt F) → (⟨S3300000x1, .i32⟩ : BufTy).Contents (Elt F)),
    binary main_v48 main_v77 main_v78 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v71 main_v79 (broadcastInDim S3300000x1 ![0] bcast_S3300000_S3300000x1_0 : (⟨S3300000, .f32⟩ : BufTy).Contents (Elt F) → (⟨S3300000x1, .f32⟩ : BufTy).Contents (Elt F)),
    unary main_v79 main_v80 (broadcastInDim S3300000x40 ![0, 1] bcast_S3300000x1_S3300000x40_0_1 : (⟨S3300000x1, .f32⟩ : BufTy).Contents (Elt F) → (⟨S3300000x40, .f32⟩ : BufTy).Contents (Elt F)),
    binary main_v78 main_v80 main_v81 (mulf : (⟨S3300000x40, .f32⟩ : BufTy).Contents (Elt F) → (⟨S3300000x40, .f32⟩ : BufTy).Contents (Elt F) → (⟨S3300000x40, .f32⟩ : BufTy).Contents (Elt F)),
    nullary main_cst_19 (constant S_ .f32 0x00000000#32),
    unary main_cst_19 main_v82 (broadcastInDim S100000x40 ![] bcast_S_S100000x40 : (⟨S_, .f32⟩ : BufTy).Contents (Elt F) → (⟨S100000x40, .f32⟩ : BufTy).Contents (Elt F)),
    unary main_v6 main_v83 (broadcastInDim S3300000x1 ![0] bcast_S3300000_S3300000x1_0 : (⟨S3300000, .i32⟩ : BufTy).Contents (Elt F) → (⟨S3300000x1, .i32⟩ : BufTy).Contents (Elt F)),
    ternary main_v82 main_v83 main_v81 main_v84 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg5 main_v85 (broadcastInDim S1x40 ![1] bcast_S40_S1x40_1 : (⟨S40, .f32⟩ : BufTy).Contents (Elt F) → (⟨S1x40, .f32⟩ : BufTy).Contents (Elt F)),
    unary main_v85 main_v86 (broadcastInDim S100000x40 ![0, 1] bcast_S1x40_S100000x40_0_1 : (⟨S1x40, .f32⟩ : BufTy).Contents (Elt F) → (⟨S100000x40, .f32⟩ : BufTy).Contents (Elt F)),
    binary main_v84 main_v86 main_v87 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call3_cst) (constant S_ .f32 0xFF800000#32),
    TRef.binary (TRef.of (T := ⟨S100000x40, .f32⟩) main_v87) (TRef.of (T := ⟨S_, .f32⟩) main_call3_cst) (TRef.of (T := ⟨S100000, .f32⟩) main_call3_v0) (fun x v => Host.reduce FloatOps.maximumf x v reducesTo_S100000x40_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x40, .f32⟩) main_call3_v4) (broadcastInDim S100000x40 ![0, 1] bcast_S100000x1_S100000x40_0_1),
    TRef.binary (TRef.of (T := ⟨S100000x40, .f32⟩) main_v87) (TRef.of (T := ⟨S100000x40, .f32⟩) main_call3_v4) (TRef.of (T := ⟨S100000x40, .f32⟩) main_call3_v5) subf,
    TRef.unary (TRef.of (T := ⟨S100000x40, .f32⟩) main_call3_v5) (TRef.of (T := ⟨S100000x40, .f32⟩) main_call3_v6) Host.exp,
    TRef.nullary (TRef.of (T := ⟨S_, .f32⟩) main_call3_cst_1) (constant S_ .f32 0x00000000#32),
    TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x40, .f32⟩) main_call3_v10) (broadcastInDim S100000x40 ![0, 1] bcast_S100000x1_S100000x40_0_1),
    TRef.binary (TRef.of (T := ⟨S100000x40, .f32⟩) main_call3_v5) (TRef.of (T := ⟨S100000x40, .f32⟩) main_call3_v10) (TRef.of (T := ⟨S100000x40, .f32⟩) main_v88) subf ]

set_option maxRecDepth 8192 in
set_option maxHeartbeats 4000000 in
/-- @main is the sequence of these operations. -/
theorem main_eq (c : Dev nD) : main (F := F) c = seq ops := rfl

/-- No buffer and no semaphore of this program is scoped to a region. -/
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation reads and writes buffers of the TensorCore only. -/
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 16384 in
set_option maxHeartbeats 4000000 in
/-- The 131 operations are the five parts, one after the other. -/
theorem ops_split : (ops : List (HloOp τ sig (Elt F)))
    = opsFirst ++ (opsHidden ++ (opsWeightsAgain ++ (opsLogits ++ opsLogSoftmax))) := rfl

/-- The fold of the 131 operations over the launch contents, read at the result buffer, is the network of the six
    argument arrays: the five parts read one after the other, each at the contents the earlier ones left. -/
theorem result_eq (m : (ℓ : Loc nD τ sig) → Buf (Elt F) ℓ) (c : Dev nD) :
    after (ops (F := F)) (launchContents m c) (Proc.devRef .tc main_v88)
      = Cert.Stages.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [ops_split, after_append, after_append, after_append, after_append]
  -- the contents after the first part, at the buffers later parts read
  have a3 : (after (opsFirst (F := F)) (launchContents m c)) (Proc.devRef .tc main_v3) = Cert.Stages.firstEnds (F := F) (m ((c.tc : Thread nD τ).loc main_arg1)) := first_firstEnds (launchContents m c)
  have a6 : (after (opsFirst (F := F)) (launchContents m c)) (Proc.devRef .tc main_v6) = Cert.Stages.secondEnds (F := F) (m ((c.tc : Thread nD τ).loc main_arg1)) := first_secondEnds (launchContents m c)
  have a7 : (after (opsFirst (F := F)) (launchContents m c)) (Proc.devRef .tc main_v7) = Host.dotGeneral (F := F) (φ₁ := .f32) (φ₂ := .f32) dot_S100000x512_S512x16_S100000x16_1_0_0_1_n_n none (m ((c.tc : Thread nD τ).loc main_arg0)) (m ((c.tc : Thread nD τ).loc main_arg2)) := first_product (launchContents m c)
  have a30 : (after (opsFirst (F := F)) (launchContents m c)) (Proc.devRef .tc main_v30)
      = Cert.Stages.edgeWeight (F := F) (Cert.Stages.firstEnds (F := F) (m ((c.tc : Thread nD τ).loc main_arg1))) (Cert.Stages.secondEnds (F := F) (m ((c.tc : Thread nD τ).loc main_arg1))) := first_weights (launchContents m c)
  have aarg3 : (after (opsFirst (F := F)) (launchContents m c)) (Proc.devRef .tc main_arg3) = (m ((c.tc : Thread nD τ).loc main_arg3)) := first_keeps_arg3 (launchContents m c)
  have aarg4 : (after (opsFirst (F := F)) (launchContents m c)) (Proc.devRef .tc main_arg4) = (m ((c.tc : Thread nD τ).loc main_arg4)) := first_keeps_arg4 (launchContents m c)
  have aarg5 : (after (opsFirst (F := F)) (launchContents m c)) (Proc.devRef .tc main_arg5) = (m ((c.tc : Thread nD τ).loc main_arg5)) := first_keeps_arg5 (launchContents m c)
  -- after the second part
  have b48 : (after (opsHidden (F := F)) (after (opsFirst (F := F)) (launchContents m c))) (Proc.devRef .tc main_v48)
      = Host.dotGeneral (F := F) (φ₁ := .f32) (φ₂ := .f32) dot_S100000x16_S16x40_S100000x40_1_0_0_1_n_n none (Cert.Stages.hidden (F := F) (Host.dotGeneral (F := F) (φ₁ := .f32) (φ₂ := .f32) dot_S100000x512_S512x16_S100000x16_1_0_0_1_n_n none (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4)) := by
    refine (hidden_product (after (opsFirst (F := F)) (launchContents m c))).trans ?_
    rw [a3, a6, a7, a30, aarg3, aarg4]
    rfl
  have b3 : (after (opsHidden (F := F)) (after (opsFirst (F := F)) (launchContents m c))) (Proc.devRef .tc main_v3) = Cert.Stages.firstEnds (F := F) (m ((c.tc : Thread nD τ).loc main_arg1)) := (hidden_keeps_v3 (after (opsFirst (F := F)) (launchContents m c))).trans a3
  have b6 : (after (opsHidden (F := F)) (after (opsFirst (F := F)) (launchContents m c))) (Proc.devRef .tc main_v6) = Cert.Stages.secondEnds (F := F) (m ((c.tc : Thread nD τ).loc main_arg1)) := (hidden_keeps_v6 (after (opsFirst (F := F)) (launchContents m c))).trans a6
  have barg5 : (after (opsHidden (F := F)) (after (opsFirst (F := F)) (launchContents m c))) (Proc.devRef .tc main_arg5) = (m ((c.tc : Thread nD τ).loc main_arg5)) := (hidden_keeps_arg5 (after (opsFirst (F := F)) (launchContents m c))).trans aarg5
  -- after the third part: the weights again, from the same two columns
  have c71 : (after (opsWeightsAgain (F := F)) (after (opsHidden (F := F)) (after (opsFirst (F := F)) (launchContents m c)))) (Proc.devRef .tc main_v71)
      = Cert.Stages.edgeWeight (F := F) (Cert.Stages.firstEnds (F := F) (m ((c.tc : Thread nD τ).loc main_arg1))) (Cert.Stages.secondEnds (F := F) (m ((c.tc : Thread nD τ).loc main_arg1))) := by
    refine (again_weights (after (opsHidden (F := F)) (after (opsFirst (F := F)) (launchContents m c)))).trans ?_
    rw [b3, b6]
  have c48 := (again_keeps_v48 (after (opsHidden (F := F)) (after (opsFirst (F := F)) (launchContents m c)))).trans b48
  have c3 := (again_keeps_v3 (after (opsHidden (F := F)) (after (opsFirst (F := F)) (launchContents m c)))).trans b3
  have c6 := (again_keeps_v6 (after (opsHidden (F := F)) (after (opsFirst (F := F)) (launchContents m c)))).trans b6
  have carg5 := (again_keeps_arg5 (after (opsHidden (F := F)) (after (opsFirst (F := F)) (launchContents m c)))).trans barg5
  -- the logits, then their log-soft-max
  refine (logSoftmax_value (after (opsLogits (F := F)) (after (opsWeightsAgain (F := F)) (after (opsHidden (F := F)) (after (opsFirst (F := F)) (launchContents m c)))))).trans ?_
  rw [logits_value (after (opsWeightsAgain (F := F)) (after (opsHidden (F := F)) (after (opsFirst (F := F)) (launchContents m c)))), c48, c3, c6, c71, carg5]
  rfl

/-- Closes "no operation of the list writes this buffer": each operation writes one buffer, a different one. -/
local macro "no_writer" : tactic =>
  `(tactic| (simp only [ops, List.Forall, nullary_writes, unary_writes, binary_writes, ternary_writes, quaternary_writes, reshape_writes, binaryIndexed_writes, Finset.mem_singleton]; (repeat' apply And.intro); all_goals exact devRef_ne_of_ne (by decide)))

set_option maxRecDepth 16384 in
set_option maxHeartbeats 8000000 in
/-- No operation writes argument 0: it ends as launched. -/
theorem kept_arg0 (m : (ℓ : Loc nD τ sig) → Buf (Elt F) ℓ) (c : Dev nD) :
    after (ops (F := F)) (launchContents m c) (Proc.devRef .tc main_arg0) = m ((c.tc : Thread nD τ).loc main_arg0) :=
  after_of_forall_not_mem (b := Proc.devRef .tc main_arg0) _ _ (List.forall_iff_forall_mem.mp (by no_writer))
set_option maxRecDepth 16384 in
set_option maxHeartbeats 8000000 in
/-- No operation writes argument 1: it ends as launched. -/
theorem kept_arg1 (m : (ℓ : Loc nD τ sig) → Buf (Elt F) ℓ) (c : Dev nD) :
    after (ops (F := F)) (launchContents m c) (Proc.devRef .tc main_arg1) = m ((c.tc : Thread nD τ).loc main_arg1) :=
  after_of_forall_not_mem (b := Proc.devRef .tc main_arg1) _ _ (List.forall_iff_forall_mem.mp (by no_writer))
set_option maxRecDepth 16384 in
set_option maxHeartbeats 8000000 in
/-- No operation writes argument 2: it ends as launched. -/
theorem kept_arg2 (m : (ℓ : Loc nD τ sig) → Buf (Elt F) ℓ) (c : Dev nD) :
    after (ops (F := F)) (launchContents m c) (Proc.devRef .tc main_arg2) = m ((c.tc : Thread nD τ).loc main_arg2) :=
  after_of_forall_not_mem (b := Proc.devRef .tc main_arg2) _ _ (List.forall_iff_forall_mem.mp (by no_writer))
set_option maxRecDepth 16384 in
set_option maxHeartbeats 8000000 in
/-- No operation writes argument 3: it ends as launched. -/
theorem kept_arg3 (m : (ℓ : Loc nD τ sig) → Buf (Elt F) ℓ) (c : Dev nD) :
    after (ops (F := F)) (launchContents m c) (Proc.devRef .tc main_arg3) = m ((c.tc : Thread nD τ).loc main_arg3) :=
  after_of_forall_not_mem (b := Proc.devRef .tc main_arg3) _ _ (List.forall_iff_forall_mem.mp (by no_writer))
set_option maxRecDepth 16384 in
set_option maxHeartbeats 8000000 in
/-- No operation writes argument 4: it ends as launched. -/
theorem kept_arg4 (m : (ℓ : Loc nD τ sig) → Buf (Elt F) ℓ) (c : Dev nD) :
    after (ops (F := F)) (launchContents m c) (Proc.devRef .tc main_arg4) = m ((c.tc : Thread nD τ).loc main_arg4) :=
  after_of_forall_not_mem (b := Proc.devRef .tc main_arg4) _ _ (List.forall_iff_forall_mem.mp (by no_writer))
set_option maxRecDepth 16384 in
set_option maxHeartbeats 8000000 in
/-- No operation writes argument 5: it ends as launched. -/
theorem kept_arg5 (m : (ℓ : Loc nD τ sig) → Buf (Elt F) ℓ) (c : Dev nD) :
    after (ops (F := F)) (launchContents m c) (Proc.devRef .tc main_arg5) = m ((c.tc : Thread nD τ).loc main_arg5) :=
  after_of_forall_not_mem (b := Proc.devRef .tc main_arg5) _ _ (List.forall_iff_forall_mem.mp (by no_writer))

set_option maxRecDepth 16384 in
set_option maxHeartbeats 52400000 in
/-- On every device, from any memory with zero counters: every weakly fair execution of the reference terminates,
    nothing faulting, with the result buffer at the network of the six argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = Cert.Stages.network (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (result_eq m c),
      (h c main_arg0).trans (kept_arg0 m c),
      (h c main_arg1).trans (kept_arg1 m c),
      (h c main_arg2).trans (kept_arg2 m c),
      (h c main_arg3).trans (kept_arg3 m c),
      (h c main_arg4).trans (kept_arg4 m c),
      (h c main_arg5).trans (kept_arg5 m c)⟩)
    (run_seq scopedRefs_eq scopedSems_eq defs main (fun _ => ops) main_eq (fun _ => ops_sub) m ρ)

end Cert.ReferenceIdeal.HandRun

end
-- ==== Proof.RowBlockProducts.lean ====
/-
  The two matrix-product regions. Each runs over a grid of 20 points; point t multiplies rows 5000 t … 5000 t + 4999 of
  its left array by the whole of its right array and writes the product as row block t of its output array. At the ideal
  values narrowing to bf16 changes nothing, so block t is row block t of the host's product of the two whole arrays, and
  the 20 blocks tile the output: the region leaves the host's product.
-/
import proofs.«158676_j62508954026414_1_alg».proof.Proof.Gen.KernelIdeal.Frame
import proofs.«158676_j62508954026414_1_alg».proof.Proof.Gen.ReferenceIdeal
import proofs.«158676_j62508954026414_1_alg».proof.Proof.Stages
import Idealize.ShloMosaic.PureOps.Ideal
import Idealize.ShloMosaic.PureOps.Ideal.Laws
import Idealize.ShloMosaic.Lib.Pipeline.Value
import Idealize.ShloMosaic.Lib.ValueIdx

noncomputable section
namespace Cert.KernelIdeal.Regions.Product
open Idealize.ShloMosaic Idealize.ShloMosaic.TcCoe Idealize.SL.Sem Cert.KernelIdeal Cert.KernelIdeal.Gen
variable (V : (c : Dev nD) → (b : Ref sig .tc) → Buf (Elt Ideal) ((c : Thread nD τ).loc b))

/-! ## A matrix product at an index

Every product here contracts the second axis of an [M, K] array with the first axis of a [K, N] array. Its element at
(p, q) is a sum over the contraction shape's indices; that shape has the one axis of extent K, so the sum is the sum
over k : Fin K of l(p, k) · r(k, q). The four coordinate facts about the operand indices are read off each record of
dimension numbers below. -/

section Contraction
variable {M K N : Nat} (D : DotDims (⟨2, ![M, K]⟩ : Shape) (⟨2, ![K, N]⟩ : Shape) (⟨2, ![M, N]⟩ : Shape))

/-- The sum over the contraction indices, re-indexed by the contracted axis's coordinate. -/
theorem sum_contr (hr : D.contr.rank = 1) (hs : D.contr.size ⟨0, by omega⟩ = K)
    (hl0 : ∀ (i : (⟨2, ![M, N]⟩ : Shape).Idx) (k : D.contr.Idx), (D.lhsIdx i k 0).val = (i 0).val)
    (hl1 : ∀ (i : (⟨2, ![M, N]⟩ : Shape).Idx) (k : D.contr.Idx), (D.lhsIdx i k 1).val = (k ⟨0, by omega⟩).val)
    (hr0 : ∀ (i : (⟨2, ![M, N]⟩ : Shape).Idx) (k : D.contr.Idx), (D.rhsIdx i k 0).val = (k ⟨0, by omega⟩).val)
    (hr1 : ∀ (i : (⟨2, ![M, N]⟩ : Shape).Idx) (k : D.contr.Idx), (D.rhsIdx i k 1).val = (i 1).val)
    (l : (⟨2, ![M, K]⟩ : Shape).Idx → EReal) (r : (⟨2, ![K, N]⟩ : Shape).Idx → EReal) (p : Fin M) (q : Fin N) :
    ∑ k : D.contr.Idx, l (D.lhsIdx (ValueIdx.ix2 p q) k) * r (D.rhsIdx (ValueIdx.ix2 p q) k)
      = ∑ k : Fin K, l (ValueIdx.ix2 p k) * r (ValueIdx.ix2 k q) := by
  rw [← Equiv.sum_comp (ValueIdx.contrEquiv1 D K hr hs).symm]
  refine Finset.sum_congr rfl fun k _ => ?_
  have hk := ValueIdx.contrEquiv1_symm_val D K hr hs k
  have el : D.lhsIdx (ValueIdx.ix2 p q) ((ValueIdx.contrEquiv1 D K hr hs).symm k) = ValueIdx.ix2 p k :=
    funext fun a => Fin.ext (by
      match a with
      | ⟨0, _⟩ => exact hl0 _ _
      | ⟨1, _⟩ => exact (hl1 _ _).trans hk)
  have er : D.rhsIdx (ValueIdx.ix2 p q) ((ValueIdx.contrEquiv1 D K hr hs).symm k) = ValueIdx.ix2 k q :=
    funext fun a => Fin.ext (by
      match a with
      | ⟨0, _⟩ => exact (hr0 _ _).trans hk
      | ⟨1, _⟩ => exact hr1 _ _)
  rw [el, er]

end Contraction

/-! ### The host's two products -/

theorem host0_lhs_row (i : Cert.ReferenceIdeal.S100000x16.Idx) (k : Cert.ReferenceIdeal.dot_S100000x512_S512x16_S100000x16_1_0_0_1_n_n.contr.Idx) :
    (Cert.ReferenceIdeal.dot_S100000x512_S512x16_S100000x16_1_0_0_1_n_n.lhsIdx i k 0).val = (i 0).val := by
  unfold DotDims.lhsIdx
  rw [dif_neg (show ¬(0 : Fin Cert.ReferenceIdeal.S100000x512.rank) ∈ Cert.ReferenceIdeal.dot_S100000x512_S512x16_S100000x16_1_0_0_1_n_n.lhsBatch by decide),
    dif_pos (show (0 : Fin Cert.ReferenceIdeal.S100000x512.rank) ∈ Cert.ReferenceIdeal.dot_S100000x512_S512x16_S100000x16_1_0_0_1_n_n.lhsNonContracting by decide)]
  rfl

theorem host0_rhs_col (i : Cert.ReferenceIdeal.S100000x16.Idx) (k : Cert.ReferenceIdeal.dot_S100000x512_S512x16_S100000x16_1_0_0_1_n_n.contr.Idx) :
    (Cert.ReferenceIdeal.dot_S100000x512_S512x16_S100000x16_1_0_0_1_n_n.rhsIdx i k 1).val = (i 1).val := by
  unfold DotDims.rhsIdx
  rw [dif_neg (show ¬(1 : Fin Cert.ReferenceIdeal.S512x16.rank) ∈ Cert.ReferenceIdeal.dot_S100000x512_S512x16_S100000x16_1_0_0_1_n_n.rhsBatch by decide),
    dif_pos (show (1 : Fin Cert.ReferenceIdeal.S512x16.rank) ∈ Cert.ReferenceIdeal.dot_S100000x512_S512x16_S100000x16_1_0_0_1_n_n.rhsNonContracting by decide)]
  rfl

/-- The host's product of a [100000, 512] array with a [512, 16] array, at (p, q): the sum over k of l(p, k) · r(k, q). -/
theorem host0_apply (l : (⟨S100000x512, .f32⟩ : BufTy).Contents (Elt Ideal)) (r : (⟨S512x16, .f32⟩ : BufTy).Contents (Elt Ideal))
    (p : Fin 100000) (q : Fin 16) :
    Host.dotGeneral (F := Ideal) (φ₁ := .f32) (φ₂ := .f32) Cert.ReferenceIdeal.dot_S100000x512_S512x16_S100000x16_1_0_0_1_n_n none l r (ValueIdx.ix2 p q)
      = ∑ k : Fin 512, l (ValueIdx.ix2 p k) * r (ValueIdx.ix2 k q) := by
  simp only [Host.dotGeneral]
  rw [Ideal.dotGeneral_apply]
  exact sum_contr Cert.ReferenceIdeal.dot_S100000x512_S512x16_S100000x16_1_0_0_1_n_n rfl rfl host0_lhs_row
    (fun i k => Cert.ReferenceIdeal.dot_S100000x512_S512x16_S100000x16_1_0_0_1_n_n.lhsIdx_val_of_single rfl i k)
    (fun i k => Cert.ReferenceIdeal.dot_S100000x512_S512x16_S100000x16_1_0_0_1_n_n.rhsIdx_val_of_single rfl i k)
    host0_rhs_col l r p q

/-! ### The first block product -/

theorem block0_lhs_row (i : S5000x16.Idx) (k : dot_S5000x512_S512x16_S5000x16_1_0_0_1_n_n.contr.Idx) :
    (dot_S5000x512_S512x16_S5000x16_1_0_0_1_n_n.lhsIdx i k 0).val = (i 0).val := by
  unfold DotDims.lhsIdx
  rw [dif_neg (show ¬(0 : Fin S5000x512.rank) ∈ dot_S5000x512_S512x16_S5000x16_1_0_0_1_n_n.lhsBatch by decide),
    dif_pos (show (0 : Fin S5000x512.rank) ∈ dot_S5000x512_S512x16_S5000x16_1_0_0_1_n_n.lhsNonContracting by decide)]
  rfl

theorem block0_rhs_col (i : S5000x16.Idx) (k : dot_S5000x512_S512x16_S5000x16_1_0_0_1_n_n.contr.Idx) :
    (dot_S5000x512_S512x16_S5000x16_1_0_0_1_n_n.rhsIdx i k 1).val = (i 1).val := by
  unfold DotDims.rhsIdx
  rw [dif_neg (show ¬(1 : Fin S512x16.rank) ∈ dot_S5000x512_S512x16_S5000x16_1_0_0_1_n_n.rhsBatch by decide),
    dif_pos (show (1 : Fin S512x16.rank) ∈ dot_S5000x512_S512x16_S5000x16_1_0_0_1_n_n.rhsNonContracting by decide)]
  rfl

/-- What the first region's body computes from its two loaded blocks, at (p, q): narrowing to bf16 changes no ideal
    value and the accumulator is the zero array, so it is the sum over k of x0(p, k) · x1(k, q). -/
theorem block0_apply (x0 : Vec Ideal S5000x512 .f32) (x1 : Vec Ideal S512x16 .f32) (p : Fin 5000) (q : Fin 16) :
    k0_pay1 (F := Ideal) x0 x1 (ValueIdx.ix2 p q) = ∑ k : Fin 512, x0 (ValueIdx.ix2 p k) * x1 (ValueIdx.ix2 k q) := by
  unfold k0_pay1
  refine (Ideal.matmul_constant_zero_apply dot_S5000x512_S512x16_S5000x16_1_0_0_1_n_n none _ _ (ValueIdx.ix2 p q)).trans ?_
  exact sum_contr dot_S5000x512_S512x16_S5000x16_1_0_0_1_n_n rfl rfl block0_lhs_row
    (fun i k => dot_S5000x512_S512x16_S5000x16_1_0_0_1_n_n.lhsIdx_val_of_single rfl i k)
    (fun i k => dot_S5000x512_S512x16_S5000x16_1_0_0_1_n_n.rhsIdx_val_of_single rfl i k)
    block0_rhs_col x0 x1 p q

/-! ### The host's second product -/

theorem host1_lhs_row (i : Cert.ReferenceIdeal.S100000x40.Idx) (k : Cert.ReferenceIdeal.dot_S100000x16_S16x40_S100000x40_1_0_0_1_n_n.contr.Idx) :
    (Cert.ReferenceIdeal.dot_S100000x16_S16x40_S100000x40_1_0_0_1_n_n.lhsIdx i k 0).val = (i 0).val := by
  unfold DotDims.lhsIdx
  rw [dif_neg (show ¬(0 : Fin Cert.ReferenceIdeal.S100000x16.rank) ∈ Cert.ReferenceIdeal.dot_S100000x16_S16x40_S100000x40_1_0_0_1_n_n.lhsBatch by decide),
    dif_pos (show (0 : Fin Cert.ReferenceIdeal.S100000x16.rank) ∈ Cert.ReferenceIdeal.dot_S100000x16_S16x40_S100000x40_1_0_0_1_n_n.lhsNonContracting by decide)]
  rfl

theorem host1_rhs_col (i : Cert.ReferenceIdeal.S100000x40.Idx) (k : Cert.ReferenceIdeal.dot_S100000x16_S16x40_S100000x40_1_0_0_1_n_n.contr.Idx) :
    (Cert.ReferenceIdeal.dot_S100000x16_S16x40_S100000x40_1_0_0_1_n_n.rhsIdx i k 1).val = (i 1).val := by
  unfold DotDims.rhsIdx
  rw [dif_neg (show ¬(1 : Fin Cert.ReferenceIdeal.S16x40.rank) ∈ Cert.ReferenceIdeal.dot_S100000x16_S16x40_S100000x40_1_0_0_1_n_n.rhsBatch by decide),
    dif_pos (show (1 : Fin Cert.ReferenceIdeal.S16x40.rank) ∈ Cert.ReferenceIdeal.dot_S100000x16_S16x40_S100000x40_1_0_0_1_n_n.rhsNonContracting by decide)]
  rfl

/-- The host's product of a [100000, 16] array with a [16, 40] array, at (p, q): the sum over k of l(p, k) · r(k, q). -/
theorem host1_apply (l : (⟨S100000x16, .f32⟩ : BufTy).Contents (Elt Ideal)) (r : (⟨S16x40, .f32⟩ : BufTy).Contents (Elt Ideal))
    (p : Fin 100000) (q : Fin 40) :
    Host.dotGeneral (F := Ideal) (φ₁ := .f32) (φ₂ := .f32) Cert.ReferenceIdeal.dot_S100000x16_S16x40_S100000x40_1_0_0_1_n_n none l r (ValueIdx.ix2 p q)
      = ∑ k : Fin 16, l (ValueIdx.ix2 p k) * r (ValueIdx.ix2 k q) := by
  simp only [Host.dotGeneral]
  rw [Ideal.dotGeneral_apply]
  exact sum_contr Cert.ReferenceIdeal.dot_S100000x16_S16x40_S100000x40_1_0_0_1_n_n rfl rfl host1_lhs_row
    (fun i k => Cert.ReferenceIdeal.dot_S100000x16_S16x40_S100000x40_1_0_0_1_n_n.lhsIdx_val_of_single rfl i k)
    (fun i k => Cert.ReferenceIdeal.dot_S100000x16_S16x40_S100000x40_1_0_0_1_n_n.rhsIdx_val_of_single rfl i k)
    host1_rhs_col l r p q

/-! ### The second block product -/

theorem block1_lhs_row (i : S5000x40.Idx) (k : dot_S5000x16_S16x40_S5000x40_1_0_0_1_n_n.contr.Idx) :
    (dot_S5000x16_S16x40_S5000x40_1_0_0_1_n_n.lhsIdx i k 0).val = (i 0).val := by
  unfold DotDims.lhsIdx
  rw [dif_neg (show ¬(0 : Fin S5000x16.rank) ∈ dot_S5000x16_S16x40_S5000x40_1_0_0_1_n_n.lhsBatch by decide),
    dif_pos (show (0 : Fin S5000x16.rank) ∈ dot_S5000x16_S16x40_S5000x40_1_0_0_1_n_n.lhsNonContracting by decide)]
  rfl

theorem block1_rhs_col (i : S5000x40.Idx) (k : dot_S5000x16_S16x40_S5000x40_1_0_0_1_n_n.contr.Idx) :
    (dot_S5000x16_S16x40_S5000x40_1_0_0_1_n_n.rhsIdx i k 1).val = (i 1).val := by
  unfold DotDims.rhsIdx
  rw [dif_neg (show ¬(1 : Fin S16x40.rank) ∈ dot_S5000x16_S16x40_S5000x40_1_0_0_1_n_n.rhsBatch by decide),
    dif_pos (show (1 : Fin S16x40.rank) ∈ dot_S5000x16_S16x40_S5000x40_1_0_0_1_n_n.rhsNonContracting by decide)]
  rfl

/-- What the second region's body computes from its two loaded blocks, at (p, q): the cast of a shape to itself and the
    narrowing to bf16 change no ideal value and the accumulator is the zero array, so it is the sum over k of
    x0(p, k) · x1(k, q). -/
theorem block1_apply (x0 : Vec Ideal S5000x16 .f32) (x1 : Vec Ideal S16x40 .f32) (p : Fin 5000) (q : Fin 40) :
    k1_pay1 (F := Ideal) x0 x1 (ValueIdx.ix2 p q) = ∑ k : Fin 16, x0 (ValueIdx.ix2 p k) * x1 (ValueIdx.ix2 k q) := by
  unfold k1_pay1
  rw [shapeCast_self]
  refine (Ideal.matmul_constant_zero_apply dot_S5000x16_S16x40_S5000x40_1_0_0_1_n_n none _ _ (ValueIdx.ix2 p q)).trans ?_
  exact sum_contr dot_S5000x16_S16x40_S5000x40_1_0_0_1_n_n rfl rfl block1_lhs_row
    (fun i k => dot_S5000x16_S16x40_S5000x40_1_0_0_1_n_n.lhsIdx_val_of_single rfl i k)
    (fun i k => dot_S5000x16_S16x40_S5000x40_1_0_0_1_n_n.rhsIdx_val_of_single rfl i k)
    block1_rhs_col x0 x1 p q

/-! ## Region 0: the row blocks of x · W1 -/

/-- A block's zero offsets, however the zeros are spelt. -/
theorem zero_offsets : (![0, 0] : Fin 2 → Nat) = fun _ => 0 := funext fun a => by fin_cases a <;> rfl

/-- One point of the first region, over variables: if x0 is rows 5000 s … 5000 s + 4999 of l and x1 is all of r,
    then the body's block at j is the host's product of l and r at row 5000 s + j 0, column j 1. -/
theorem point0 (x0 : Vec Ideal S5000x512 .f32) (x1 : Vec Ideal S512x16 .f32)
    (l : (⟨S100000x512, .f32⟩ : BufTy).Contents (Elt Ideal)) (r : (⟨S512x16, .f32⟩ : BufTy).Contents (Elt Ideal))
    (s : Nat) (j : S5000x16.Idx) (i : S100000x16.Idx)
    (hi0 : (i 0).val = s * 5000 + (j 0).val) (hi1 : (i 1).val = (j 1).val)
    (hx0 : ∀ (y : S5000x512.Idx) (z : S100000x512.Idx), (z 0).val = s * 5000 + (y 0).val → (z 1).val = (y 1).val → x0 y = l z)
    (hx1 : ∀ y : S512x16.Idx, x1 y = r y) :
    k0_pay1 (F := Ideal) x0 x1 j
      = Host.dotGeneral (F := Ideal) (φ₁ := .f32) (φ₂ := .f32) Cert.ReferenceIdeal.dot_S100000x512_S512x16_S100000x16_1_0_0_1_n_n none l r i := by
  obtain ⟨p, q, rfl⟩ : ∃ (p : Fin 5000) (q : Fin 16), j = ValueIdx.ix2 p q := ⟨j 0, j 1, ValueIdx.eq_ix2 j⟩
  obtain ⟨p', q', rfl⟩ : ∃ (p' : Fin 100000) (q' : Fin 16), i = ValueIdx.ix2 p' q' := ⟨i 0, i 1, ValueIdx.eq_ix2 i⟩
  have hq : q' = q := Fin.ext hi1
  subst hq
  refine (block0_apply x0 x1 p q').trans ((host0_apply l r p' q').trans ?_).symm
  refine Finset.sum_congr rfl fun k _ => ?_
  rw [hx0 (ValueIdx.ix2 p k) (ValueIdx.ix2 p' k) hi0 rfl, hx1]

/-- The printed index maps over the grid of 20 points: the left operand's row block is the output's, every other block
    index is 0, and the output's row block at point t is t. -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the host's product of the two arrays as the region finds them. -/
theorem flushed0_eq (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S100000x512_S512x16_S100000x16_1_0_0_1_n_n none (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x512) zero_offsets, View.ld_unit_zero (S := S512x16) zero_offsets]
  obtain ⟨e0, e1, e2, e3, e4, e5⟩ := index_facts0 t
  funext j
  refine point0 (iblk0 V c 0 t) (iblk0 V c 1 t) (V c main_arg0) (V c main_arg2) (win0_2.index t (0 : Fin 2)) _ _ ?_ ?_ ?_ ?_
  · show win0_2.index t (0 : Fin 2) * 5000 + 1 * (j 0).val = win0_2.index t (0 : Fin 2) * 5000 + (j 0).val
    omega
  · show win0_2.index t (1 : Fin 2) * 16 + 1 * (j 1).val = (j 1).val
    omega
  · intro y z hz0 hz1
    show V c main_arg0 (((cfg0.win 0).blk t).view.emb y) = V c main_arg0 z
    refine congrArg (V c main_arg0) ?_
    funext a; apply Fin.ext
    match a with
    | ⟨0, _⟩ => show win0_0.index t (0 : Fin 2) * 5000 + 1 * (y 0).val = (z 0).val; omega
    | ⟨1, _⟩ => show win0_0.index t (1 : Fin 2) * 512 + 1 * (y 1).val = (z 1).val; omega
  · intro y
    show V c main_arg2 (((cfg0.win 1).blk t).view.emb y) = V c main_arg2 y
    refine congrArg (V c main_arg2) ?_
    funext a; apply Fin.ext
    match a with
    | ⟨0, _⟩ => show win0_1.index t (0 : Fin 2) * 512 + 1 * (y 0).val = (y 0).val; omega
    | ⟨1, _⟩ => show win0_1.index t (1 : Fin 2) * 16 + 1 * (y 1).val = (y 1).val; omega

/-- An index of the [100000, 16] array is in point t's block iff each coordinate is in the block's range on its axis. -/
theorem mem_block0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- The 20 row blocks cover the array: row r lies in the block of point r / 5000. -/
theorem cover0 (i : S100000x16.Idx) :
    ∃ t : Fin cfg0.N, (cfg0.win 2).flush t = true ∧ i ∈ ((cfg0.win 2).blk t).view.set := by
  have h0 : (i 0).val < 100000 := (i 0).isLt
  have h1 : (i 1).val < 16 := (i 1).isLt
  have hN : cfg0.N = 20 := N_0
  have ht : (i 0).val / 5000 < cfg0.N := by rw [hN]; omega
  obtain ⟨e0, e1, e2, e3, e4, e5⟩ := index_facts0 ⟨(i 0).val / 5000, ht⟩
  refine ⟨⟨(i 0).val / 5000, ht⟩, flush0_2 _, ?_⟩
  rw [mem_block0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win0_2.index ⟨(i 0).val / 5000, ht⟩ (1 : Fin 2) * 16 ≤ (i 1).val ∧ (i 1).val < win0_2.index ⟨(i 0).val / 5000, ht⟩ (1 : Fin 2) * 16 + 16
    rw [e4]
    omega

/-! ## Region 1: the row blocks of h · W2 -/

/-- One point of the second region, over variables: if x0 is rows 5000 s … 5000 s + 4999 of l and x1 is all of r,
    then the body's block at j is the host's product of l and r at row 5000 s + j 0, column j 1. -/
theorem point1 (x0 : Vec Ideal S5000x16 .f32) (x1 : Vec Ideal S16x40 .f32)
    (l : (⟨S100000x16, .f32⟩ : BufTy).Contents (Elt Ideal)) (r : (⟨S16x40, .f32⟩ : BufTy).Contents (Elt Ideal))
    (s : Nat) (j : S5000x40.Idx) (i : S100000x40.Idx)
    (hi0 : (i 0).val = s * 5000 + (j 0).val) (hi1 : (i 1).val = (j 1).val)
    (hx0 : ∀ (y : S5000x16.Idx) (z : S100000x16.Idx), (z 0).val = s * 5000 + (y 0).val → (z 1).val = (y 1).val → x0 y = l z)
    (hx1 : ∀ y : S16x40.Idx, x1 y = r y) :
    k1_pay1 (F := Ideal) x0 x1 j
      = Host.dotGeneral (F := Ideal) (φ₁ := .f32) (φ₂ := .f32) Cert.ReferenceIdeal.dot_S100000x16_S16x40_S100000x40_1_0_0_1_n_n none l r i := by
  obtain ⟨p, q, rfl⟩ : ∃ (p : Fin 5000) (q : Fin 40), j = ValueIdx.ix2 p q := ⟨j 0, j 1, ValueIdx.eq_ix2 j⟩
  obtain ⟨p', q', rfl⟩ : ∃ (p' : Fin 100000) (q' : Fin 40), i = ValueIdx.ix2 p' q' := ⟨i 0, i 1, ValueIdx.eq_ix2 i⟩
  have hq : q' = q := Fin.ext hi1
  subst hq
  refine (block1_apply x0 x1 p q').trans ((host1_apply l r p' q').trans ?_).symm
  refine Finset.sum_congr rfl fun k _ => ?_
  rw [hx0 (ValueIdx.ix2 p k) (ValueIdx.ix2 p' k) hi0 rfl, hx1]

/-- The printed index maps over the grid of 20 points: the left operand's row block is the output's, every other block
    index is 0, and the output's row block at point t is t. -/
theorem index_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point t writes back is block t of the host's product of the two arrays as the region finds them. -/
theorem flushed1_eq (c : Dev nD) (t : Fin cfg1.N) :
    (dat1 (F := Ideal) V c).flushed 2 t = ((cfg1.win 2).blk t).view.read (Elt Ideal)
      (Host.dotGeneral (F := Ideal) (φ₁ := .f32) (φ₂ := .f32) Cert.ReferenceIdeal.dot_S100000x16_S16x40_S100000x40_1_0_0_1_n_n none (V c main_v47) (V c main_arg4)) := by
  show (cfg1.win 2).cut (grid1.coords t) ((dat1 V c).after 2 t) = _
  rw [after1_2]
  unfold out1_2
  rw [View.canon_unit_zero zero_offsets]
  simp only [View.ld_unit_zero (S := S5000x16) zero_offsets, View.ld_unit_zero (S := S16x40) zero_offsets]
  obtain ⟨e0, e1, e2, e3, e4, e5⟩ := index_facts1 t
  funext j
  refine point1 (iblk1 V c 0 t) (iblk1 V c 1 t) (V c main_v47) (V c main_arg4) (win1_2.index t (0 : Fin 2)) _ _ ?_ ?_ ?_ ?_
  · show win1_2.index t (0 : Fin 2) * 5000 + 1 * (j 0).val = win1_2.index t (0 : Fin 2) * 5000 + (j 0).val
    omega
  · show win1_2.index t (1 : Fin 2) * 40 + 1 * (j 1).val = (j 1).val
    omega
  · intro y z hz0 hz1
    show V c main_v47 (((cfg1.win 0).blk t).view.emb y) = V c main_v47 z
    refine congrArg (V c main_v47) ?_
    funext a; apply Fin.ext
    match a with
    | ⟨0, _⟩ => show win1_0.index t (0 : Fin 2) * 5000 + 1 * (y 0).val = (z 0).val; omega
    | ⟨1, _⟩ => show win1_0.index t (1 : Fin 2) * 16 + 1 * (y 1).val = (z 1).val; omega
  · intro y
    show V c main_arg4 (((cfg1.win 1).blk t).view.emb y) = V c main_arg4 y
    refine congrArg (V c main_arg4) ?_
    funext a; apply Fin.ext
    match a with
    | ⟨0, _⟩ => show win1_1.index t (0 : Fin 2) * 16 + 1 * (y 0).val = (y 0).val; omega
    | ⟨1, _⟩ => show win1_1.index t (1 : Fin 2) * 40 + 1 * (y 1).val = (y 1).val; omega

/-- An index of the [100000, 40] array is in point t's block iff each coordinate is in the block's range on its axis. -/
theorem mem_block1 (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v48).slice (win1_2.rect t)).set ↔ _
  rw [View.set_slice_whole, Rect.mem_set_unit]
  exact Iff.rfl

/-- The 20 row blocks cover the array: row r lies in the block of point r / 5000. -/
theorem cover1 (i : S100000x40.Idx) :
    ∃ t : Fin cfg1.N, (cfg1.win 2).flush t = true ∧ i ∈ ((cfg1.win 2).blk t).view.set := by
  have h0 : (i 0).val < 100000 := (i 0).isLt
  have h1 : (i 1).val < 40 := (i 1).isLt
  have hN : cfg1.N = 20 := N_1
  have ht : (i 0).val / 5000 < cfg1.N := by rw [hN]; omega
  obtain ⟨e0, e1, e2, e3, e4, e5⟩ := index_facts1 ⟨(i 0).val / 5000, ht⟩
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e5]
    show (i 0).val / 5000 * 5000 ≤ (i 0).val ∧ (i 0).val < (i 0).val / 5000 * 5000 + 5000
    omega
  | ⟨1, _⟩ =>
    show win1_2.index ⟨(i 0).val / 5000, ht⟩ (1 : Fin 2) * 40 ≤ (i 1).val ∧ (i 1).val < win1_2.index ⟨(i 0).val / 5000, ht⟩ (1 : Fin 2) * 40 + 40
    rw [e4]
    omega
/-- The first region leaves, in its output array, the host's product of the two arrays it was entered with. -/
theorem region0_value (c : Dev nD) :
    (dat0 (F := Ideal) V c).arrAt 2 cfg0.N
      = Host.dotGeneral (F := Ideal) (φ₁ := .f32) (φ₂ := .f32) Cert.ReferenceIdeal.dot_S100000x512_S512x16_S100000x16_1_0_0_1_n_n none (V c main_arg0) (V c main_arg2) :=
  (dat0 (F := Ideal) V c).arrAt_eq_of_cover 2 _ (fun t _ => flushed0_eq V c t) cover0

/-- The second region leaves, in its output array, the host's product of the two arrays it was entered with. -/
theorem region1_value (c : Dev nD) :
    (dat1 (F := Ideal) V c).arrAt 2 cfg1.N
      = Host.dotGeneral (F := Ideal) (φ₁ := .f32) (φ₂ := .f32) Cert.ReferenceIdeal.dot_S100000x16_S16x40_S100000x40_1_0_0_1_n_n none (V c main_v47) (V c main_arg4) :=
  (dat1 (F := Ideal) V c).arrAt_eq_of_cover 2 _ (fun t _ => flushed1_eq V c t) cover1

end Cert.KernelIdeal.Regions.Product
end
-- ==== Proof.LogSoftmaxEntry.lean ====
/-
  The log-soft-max of one row, entry by entry, and the two texts that compute it.

  For an array `a` with 40 columns, row `r` has the maximum `M r`: the fold of `max` over the row's 40 entries, started
  from the value of the word 0xFF800000 (−∞). Entry `(r, q)` of the row-wise log-soft-max is

      (a(r, q) − M r) − log (Σ over k of exp (a(r, k) − M r)),

  which is `entry a r q` below. Two texts are read at an index and found to be `entry`: the accelerator body's arithmetic on
  a block of 5000 rows (`blockBody_apply`: a maximum and a sum over the columns, each kept as a column `[5000, 1]` and
  spread back over the 40 columns), and the host's chain of operations on all 100000 rows (`logSoftmaxRows_apply`). The
  host compares the row maximum with −∞ once more; the fold already started there, so `max (−∞) (M r) = M r` by
  `−∞ ≤ M r`. The host's sum starts from the zero word, and `0 + s = s`. No other law is used, so nothing is asked of
  the entries: they may be infinite. A block whose rows are rows `5000·T, …, 5000·T + 4999` of the array therefore holds,
  entry by entry, the host's values on those rows (`blockBody_eq_logSoftmaxRows`).
-/
import proofs.«158676_j62508954026414_1_alg».proof.Proof.Gen.KernelIdeal.Skeleton
import proofs.«158676_j62508954026414_1_alg».proof.Proof.Gen.ReferenceIdeal
import proofs.«158676_j62508954026414_1_alg».proof.Proof.Stages
import Idealize.ShloMosaic.PureOps.Ideal
import Idealize.ShloMosaic.PureOps.Ideal.Laws
import Idealize.ShloMosaic.Lib.Pipeline.Value
import Idealize.ShloMosaic.Lib.ValueIdx

noncomputable section
namespace Cert.KernelIdeal.Regions.LogSoftmax
open Idealize.ShloMosaic Idealize.ShloMosaic.ValueIdx

/-! ## The keepdims layouts read at an index -/

section Layout
variable {α : Type}

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- A scalar spread over any shape by `broadcast_in_dim` reads the scalar everywhere. -/
theorem broadcastInDim_scalar_apply {t : Shape} (dims : Fin 0 → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

/-- An `[a]` array spread to `[a, 1]` by `broadcast_in_dim` along axis 0 reads, at `(i, u)`, the operand at `i`. -/
theorem broadcastInDim_a_a1_apply {a : ℕ} (h : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- An `[a, 1]` array spread to `[a, b]` by `broadcast_in_dim` along axes 0 and 1 reads, at `(i, j)`, the operand's
    one entry of row `i`. -/
theorem broadcastInDim_a1_ab_apply {a b : ℕ} (h : (⟨2, ![a, 1]⟩ : Shape).BroadcastsInDim ⟨2, ![a, b]⟩ ![0, 1])
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

end Layout

/-! ## One row: its maximum, its sum, and the entry of the log-soft-max -/

/-- The maximum of row `r`: the fold of `max` over its 40 entries, from the value of the word 0xFF800000 (−∞). -/
def rowMaxOf {n : ℕ} (a : FVec Ideal ⟨2, ![n, 40]⟩ .f32) (r : Fin n) : EReal :=
  (Finset.univ : Finset (Fin 40)).fold max (Ideal.ofBits .f32 0xFF800000#32) fun k => a (ix2 r k)

/-- Entry `(r, q)` of the row-wise log-soft-max: `(a(r,q) − M) − log Σₖ exp (a(r,k) − M)`, `M` the row's maximum. -/
def entry {n : ℕ} (a : FVec Ideal ⟨2, ![n, 40]⟩ .f32) (r : Fin n) (q : Fin 40) : EReal :=
  (a (ix2 r q) - rowMaxOf a r) - Ideal.log (∑ k : Fin 40, Ideal.exp (a (ix2 r k) - rowMaxOf a r))

/-- The index of row `r` with the column `k` put back is `(r, k)`. -/
theorem lift_row {n : ℕ} (h : (⟨2, ![n, 40]⟩ : Shape).Reduces [1] ⟨1, ![n]⟩) (r : Fin n) (k : Fin 40) :
    h.lift (ix1 r) k = ix2 r k := by
  funext c; apply Fin.ext
  match c with
  | ⟨0, _⟩ => rfl
  | ⟨1, _⟩ => rfl

/-- The accelerator's maximum over the columns, at row `r`. -/
theorem rowMax_kernel {n : ℕ} (v : FVec Ideal ⟨2, ![n, 40]⟩ .f32) (h : (⟨2, ![n, 40]⟩ : Shape).Reduces [1] ⟨1, ![n]⟩)
    (hφ : FTy.f32 = FTy.f32 ∨ FTy.f32 = FTy.bf16) (hacc : (0xFF800000#32 : BitVec 32) = 0xFF800000#32) (r : Fin n) :
    multiReduction .maximumf [1] ⟨1, ![n]⟩ v 0xFF800000#32 h hφ hacc (ix1 r) = rowMaxOf v r := by
  refine (Ideal.multiReduction_maximumf_single v 0xFF800000#32 h hφ hacc (ix1 r)).trans ?_
  unfold rowMaxOf
  exact congrArg (Finset.fold max _ · Finset.univ) (funext fun k => congrArg v (lift_row h r k))

/-- The accelerator's sum over the columns, at row `r`. -/
theorem rowSum_kernel {n : ℕ} (v : FVec Ideal ⟨2, ![n, 40]⟩ .f32) (h : (⟨2, ![n, 40]⟩ : Shape).Reduces [1] ⟨1, ![n]⟩)
    (hφ : FTy.f32 = FTy.f32 ∨ FTy.f32 = FTy.bf16) (hacc : (0x00000000#32 : BitVec 32) = 0x00000000#32) (r : Fin n) :
    multiReduction .add [1] ⟨1, ![n]⟩ v 0x00000000#32 h hφ hacc (ix1 r) = ∑ k : Fin 40, v (ix2 r k) := by
  refine (Ideal.multiReduction_add_single v 0x00000000#32 h hφ hacc (ix1 r)).trans ?_
  exact Finset.sum_congr rfl fun k _ => congrArg v (lift_row h r k)

/-- The host's maximum over the columns from an initial value, at row `r`. -/
theorem rowMax_host {n : ℕ} (v : FVec Ideal ⟨2, ![n, 40]⟩ .f32) (init : FVec Ideal ⟨0, ![]⟩ .f32)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduce (FloatOps.maximumf (F := Ideal) (φ := .f32)) v init h' hu (ix1 r)
      = (Finset.univ : Finset (Fin 40)).fold max (init (Shape.Idx.first hu)) fun k => v (ix2 r k) := by
  refine (Host.reduce_eq_fold_single _ v init h' h hu (ix1 r)).trans ?_
  exact congrArg (Finset.fold max _ · Finset.univ) (funext fun k => congrArg v (lift_row h r k))

/-- The host's sum over the columns onto an initial value, at row `r`. -/
theorem rowSum_host {n : ℕ} (v : FVec Ideal ⟨2, ![n, 40]⟩ .f32) (init : FVec Ideal ⟨0, ![]⟩ .f32)
    (h' : (⟨2, ![n, 40]⟩ : Shape).ReducesTo [1] ⟨1, ![n]⟩) (h : (⟨2, ![n, 40]⟩ : Shape).Reduces [1] ⟨1, ![n]⟩)
    (hu : 0 < (⟨0, ![]⟩ : Shape).numel) (r : Fin n) :
    Host.reduceAdd v init h' hu (ix1 r) = init (Shape.Idx.first hu) + ∑ k : Fin 40, v (ix2 r k) := by
  show Ideal.hostReduceAdd h' v (init (Shape.Idx.first hu)) (ix1 r) = _
  rw [Ideal.hostReduceAdd_single h' h]
  exact congrArg (_ + ·) (Finset.sum_congr rfl fun k _ => congrArg v (lift_row h r k))

/-- The exponential and the logarithm, the accelerator's and the host's, are one function each on the extended reals. -/
theorem exp_at {s : Shape} (x : FVec Ideal s .f32) (i : s.Idx) : exp x i = Ideal.exp (x i) := rfl
theorem log_at {s : Shape} (x : FVec Ideal s .f32) (i : s.Idx) : log x i = Ideal.log (x i) := rfl
theorem hostExp_at {s : Shape} (x : FVec Ideal s .f32) (i : s.Idx) : Host.exp x i = Ideal.exp (x i) := rfl
theorem hostLog_at {s : Shape} (x : FVec Ideal s .f32) (i : s.Idx) : Host.log x i = Ideal.log (x i) := rfl

/-! ## The accelerator body on a block of 5000 rows -/

section Kernel
open Cert.KernelIdeal Cert.KernelIdeal.Gen

/-- The body's arithmetic, read at entry `(p, q)` of its block. -/
theorem blockBody_apply (x0 : Vec Ideal S5000x40 .f32) (p : Fin 5000) (q : Fin 40) :
    k2_pay1 (F := Ideal) x0 (ix2 p q) = entry (n := 5000) x0 p q := by
  unfold k2_pay1
  simp only [shapeCast_self, subf_apply, broadcastTo_a1_ab_apply, log_at, shapeCast_a_a1_apply]
  rw [rowSum_kernel (n := 5000) _ Facts₀.reduces_S5000x40_S5000 _ _ p]
  simp only [exp_at, subf_apply, broadcastTo_a1_ab_apply, shapeCast_a_a1_apply]
  rw [rowMax_kernel (n := 5000) x0 Facts₀.reduces_S5000x40_S5000 _ _ p]
  rfl

end Kernel

/-! ## The host's chain on all 100000 rows -/

section Host
open Cert.ReferenceIdeal Cert.ReferenceIdeal.Facts₀

theorem rowMax_apply (a : FVec Ideal S100000x40 .f32) (r : Fin 100000) :
    Cert.Stages.rowMax (F := Ideal) a (ix1 r) = rowMaxOf (n := 100000) a r := by
  have hR : S100000x40.Reduces [1] S100000 := by decide
  unfold Cert.Stages.rowMax
  rw [maximumf_apply, broadcastInDim_scalar_apply, rowMax_host (n := 100000) a _ _ hR h_S_ r]
  show max (Ideal.ofBits .f32 0xFF800000#32) (rowMaxOf (n := 100000) a r) = _
  exact max_eq_right ((Finset.le_fold_max _).mpr (Or.inl le_rfl))

theorem shifted_apply (a : FVec Ideal S100000x40 .f32) (r : Fin 100000) (q : Fin 40) :
    Cert.Stages.shifted (F := Ideal) a (ix2 r q) = a (ix2 r q) - rowMaxOf (n := 100000) a r := by
  unfold Cert.Stages.shifted
  rw [subf_apply, broadcastInDim_a1_ab_apply, broadcastInDim_a_a1_apply, rowMax_apply]

/-- The host's chain, read at entry `(r, q)`. -/
theorem logSoftmaxRows_apply (a : FVec Ideal S100000x40 .f32) (r : Fin 100000) (q : Fin 40) :
    Cert.Stages.logSoftmaxRows (F := Ideal) a (ix2 r q) = entry (n := 100000) a r q := by
  have hR : S100000x40.Reduces [1] S100000 := by decide
  unfold Cert.Stages.logSoftmaxRows
  rw [subf_apply, shifted_apply, broadcastInDim_a1_ab_apply, hostLog_at, broadcastInDim_a_a1_apply,
    rowSum_host (n := 100000) _ _ _ hR h_S_ r, constant_apply, Ideal.ofBits_zero_f32, zero_add]
  unfold entry
  refine congrArg (fun s => a (ix2 r q) - rowMaxOf (n := 100000) a r - Ideal.log s) (Finset.sum_congr rfl fun k _ => ?_)
  rw [hostExp_at, shifted_apply]

end Host

/-! ## A block of 5000 rows against the same rows of the whole array -/

/-- If the block `x0` holds rows `5000·T, …, 5000·T + 4999` of the array `a`, the accelerator body's result at `(p, q)`
    is the host chain's at `(5000·T + p, q)`: both are the log-soft-max entry of the same row, whose maximum and sum
    run over the same 40 entries. -/
theorem blockBody_eq_logSoftmaxRows (a : FVec Ideal Cert.ReferenceIdeal.S100000x40 .f32)
    (x0 : Vec Ideal Cert.KernelIdeal.S5000x40 .f32) (T : ℕ)
    (hx : ∀ (p : Fin 5000) (k : Fin 40) (r : Fin 100000), r.val = 5000 * T + p.val → x0 (ix2 p k) = a (ix2 r k))
    (p : Fin 5000) (q : Fin 40) (r : Fin 100000) (hr : r.val = 5000 * T + p.val) :
    Cert.KernelIdeal.Gen.k2_pay1 (F := Ideal) x0 (ix2 p q) = Cert.Stages.logSoftmaxRows (F := Ideal) a (ix2 r q) := by
  have hM : rowMaxOf (n := 5000) x0 p = rowMaxOf (n := 100000) a r := by
    unfold rowMaxOf
    exact congrArg (Finset.fold max _ · Finset.univ) (funext fun k => hx p k r hr)
  rw [blockBody_apply, logSoftmaxRows_apply]
  unfold entry
  rw [hM, hx p q r hr]
  refine congrArg (fun s => a (ix2 r q) - rowMaxOf (n := 100000) a r - Ideal.log s) (Finset.sum_congr rfl fun k _ => ?_)
  rw [hx p k r hr]

end Cert.KernelIdeal.Regions.LogSoftmax
end
-- ==== Proof.RowBlockLogSoftmax.lean ====
/-
  The log-soft-max region, from blocks to the whole array.

  The region runs over 20 points. At point `t` it reads rows `5000·t, …, 5000·t + 4999` of the `[100000, 40]` array it
  finds (`block_read`), computes the log-soft-max of each of those rows, and writes the result back as the same rows of
  the output array. A row's log-soft-max depends only on that row's 40 entries, so what point `t` writes back is block
  `t` of the row-wise log-soft-max of the whole array (`flushed_eq`, by `blockBody_eq_logSoftmaxRows`). Row `r` lies in
  the block of point `r / 5000` and every point writes back, so the 20 blocks cover the output array (`covered`), which
  therefore ends holding the row-wise log-soft-max of the input array (`region2_value`).
-/
import proofs.«158676_j62508954026414_1_alg».proof.Proof.Gen.KernelIdeal.Frame
import proofs.«158676_j62508954026414_1_alg».proof.Proof.Gen.ReferenceIdeal
import proofs.«158676_j62508954026414_1_alg».proof.Proof.Stages
import proofs.«158676_j62508954026414_1_alg».proof.Proof.LogSoftmaxEntry
import Idealize.ShloMosaic.PureOps.Ideal
import Idealize.ShloMosaic.PureOps.Ideal.Laws
import Idealize.ShloMosaic.Lib.Pipeline.Value
import Idealize.ShloMosaic.Lib.ValueIdx

noncomputable section
namespace Cert.KernelIdeal.Regions.LogSoftmax
open Idealize.ShloMosaic Idealize.ShloMosaic.TcCoe Idealize.SL.Sem Cert.KernelIdeal Cert.KernelIdeal.Gen
open Idealize.ShloMosaic.ValueIdx
variable (V : (c : Dev nD) → (b : Ref sig .tc) → Buf (Elt Ideal) ((c : Thread nD τ).loc b))

/-! ## Where the blocks lie -/

theorem zero_offsets : (![0, 0] : Fin 2 → Nat) = fun _ => 0 := funext fun a => by fin_cases a <;> rfl

/-- At point `t` both windows' block index is `(t, 0)`: the block starts at row `5000·t`, column 0. -/
theorem block_index : ∀ t : Fin cfg2.N, win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem point_lt (t : Fin cfg2.N) : t.val < 20 := Nat.lt_of_lt_of_eq t.isLt N_2

/-- The input block at point `t` holds rows `5000·t, …, 5000·t + 4999` of the array the region finds. -/
theorem block_read (c : Dev nD) (t : Fin cfg2.N) (p : Fin 5000) (k : Fin 40) (r : Fin 100000)
    (hr : r.val = 5000 * t.val + p.val) :
    (iblk2 V c 0 t : Vec Ideal S5000x40 .f32) (ix2 p k) = (V c main_v64 : FVec Ideal S100000x40 .f32) (ix2 r k) := by
  obtain ⟨e0, e1, -, -⟩ := block_index t
  unfold iblk2
  rw [View.read_apply]
  show V c main_v64 (((cfg2.win 0).blk t).view.emb (ix2 p k)) = V c main_v64 (ix2 r k)
  refine congrArg (V c main_v64) (funext fun a => Fin.ext ?_)
  match a with
  | ⟨0, _⟩ => show win2_0.index t (0 : Fin 2) * 5000 + 1 * p.val = r.val; omega
  | ⟨1, _⟩ => show win2_0.index t (1 : Fin 2) * 40 + 1 * k.val = k.val; omega

/-! ## What a point writes back -/

/-- Point `t` writes back block `t` of the row-wise log-soft-max of the whole array. -/
theorem flushed_eq (c : Dev nD) (t : Fin cfg2.N) :
    (dat2 (F := Ideal) V c).flushed 1 t
      = ((cfg2.win 1).blk t).view.read (Elt Ideal) (Cert.Stages.logSoftmaxRows (F := Ideal) (V c main_v64)) := by
  show (cfg2.win 1).cut (grid2.coords t) ((dat2 V c).after 1 t) = _
  rw [after2_1]
  unfold out2_1
  rw [View.canon_unit_zero zero_offsets]
  simp only [View.ld_unit_zero (S := S5000x40) zero_offsets]
  obtain ⟨-, -, e0, e1⟩ := block_index t
  have ht := point_lt t
  funext j
  have hp : (j 0).val < 5000 := (j 0).isLt
  have hq : (j 1).val < 40 := (j 1).isLt
  have hr : 5000 * t.val + (j 0).val < 100000 := by omega
  have ej : (cfg2.win 1).xinj (grid2.coords t) j = ix2 (⟨(j 0).val, hp⟩ : Fin 5000) (⟨(j 1).val, hq⟩ : Fin 40) := by
    funext a
    match a with
    | ⟨0, _⟩ => rfl
    | ⟨1, _⟩ => rfl
  have ei : ((cfg2.win 1).blk t).view.emb j
      = ix2 (⟨5000 * t.val + (j 0).val, hr⟩ : Fin 100000) (⟨(j 1).val, hq⟩ : Fin 40) := by
    funext a; apply Fin.ext
    match a with
    | ⟨0, _⟩ => show win2_1.index t (0 : Fin 2) * 5000 + 1 * (j 0).val = 5000 * t.val + (j 0).val; omega
    | ⟨1, _⟩ => show win2_1.index t (1 : Fin 2) * 40 + 1 * (j 1).val = (j 1).val; omega
  show k2_pay1 (F := Ideal) (iblk2 V c 0 t) ((cfg2.win 1).xinj (grid2.coords t) j)
    = Cert.Stages.logSoftmaxRows (F := Ideal) (V c main_v64) (((cfg2.win 1).blk t).view.emb j)
  rw [ej, ei]
  exact blockBody_eq_logSoftmaxRows (V c main_v64) (iblk2 V c 0 t) t.val
    (fun p k r h => block_read V c t p k r h) ⟨(j 0).val, hp⟩ ⟨(j 1).val, hq⟩ ⟨5000 * t.val + (j 0).val, hr⟩ rfl

/-! ## The blocks cover the array -/

/-- An index of the array is in point `t`'s block iff each coordinate is in the block's range on its axis. -/
theorem mem_block (t : Fin cfg2.N) (i : S100000x40.Idx) :
    i ∈ ((cfg2.win 1).blk t).view.set
      ↔ ∀ a : Fin 2, win2_1.index t a * S5000x40.size a ≤ (i a).val ∧ (i a).val < win2_1.index t a * S5000x40.size a + S5000x40.size a := by
  show i ∈ ((View.whole main_v65).slice (win2_1.rect t)).set ↔ _
  rw [View.set_slice_whole, Rect.mem_set_unit]
  exact Iff.rfl

/-- Row `r` lies in the block of point `r / 5000`. -/
theorem covered (i : S100000x40.Idx) :
    ∃ t : Fin cfg2.N, (cfg2.win 1).flush t = true ∧ i ∈ ((cfg2.win 1).blk t).view.set := by
  have hi0 : (i 0).val < 100000 := (i 0).isLt
  have hi1 : (i 1).val < 40 := (i 1).isLt
  have hN : cfg2.N = 20 := N_2
  let t : Fin cfg2.N := ⟨(i 0).val / 5000, by rw [hN]; omega⟩
  obtain ⟨-, -, e0, e1⟩ := block_index t
  have tv : t.val = (i 0).val / 5000 := rfl
  refine ⟨t, flush2_1 t, ?_⟩
  rw [mem_block]
  intro a
  match a with
  | ⟨0, _⟩ =>
    show win2_1.index t (0 : Fin 2) * 5000 ≤ (i 0).val ∧ (i 0).val < win2_1.index t (0 : Fin 2) * 5000 + 5000
    omega
  | ⟨1, _⟩ =>
    show win2_1.index t (1 : Fin 2) * 40 ≤ (i 1).val ∧ (i 1).val < win2_1.index t (1 : Fin 2) * 40 + 40
    omega

/-! ## The array after the region -/

theorem region2_value (c : Dev nD) :
    (dat2 (F := Ideal) V c).arrAt 1 cfg2.N = Cert.Stages.logSoftmaxRows (F := Ideal) (V c main_v64) :=
  (dat2 (F := Ideal) V c).arrAt_eq_of_cover 1 (Cert.Stages.logSoftmaxRows (F := Ideal) (V c main_v64))
    (fun t _ => flushed_eq V c t) covered

end Cert.KernelIdeal.Regions.LogSoftmax
end
-- ==== Proof.lean ====
/-
  The certificate's proof: a two-layer graph convolution with a row-wise log-soft-max, computed by the kernel program
  in three accelerator regions among host operations, against the same network written with host operations only.

  At the ideal instance (floats are extended reals, every operation exact, a change of float format the identity) both
  programs end with the result buffer at ONE function of the six argument arrays, `Stages.network`:
    · the reference, by reading its 131 host operations back (RefStretches, RefRun);
    · the kernel program, by walking the buffer contents through its nine segments (KernelRun, HostStretches,
      KernelFold), given what each region leaves in its output array: the two matrix-product regions leave the host's
      product of their input arrays — a row block times the whole second factor is that block of rows of the product,
      the narrowing to bf16 is the identity and a sum started from zero is the sum (RowBlockProducts) — and the third
      region leaves the row-wise log-soft-max — a row's maximum and its sum of exponentials depend on that row only,
      and the reference's extra comparison of the maximum with −∞ changes nothing (RowBlockLogSoftmax).
  No step uses that the inputs are finite: sums of products are compared term by term, never rearranged across an
  infinity. The three frames: the kernel program's two are the generated frame modules'; the reference's is its run
  with the result dropped. The ideal pass rewrote nothing, so `preserves` holds trivially.
-/
import proofs.«158676_j62508954026414_1_alg».proof.Defs
import proofs.«158676_j62508954026414_1_alg».proof.Proof.Gen.Kernel
import proofs.«158676_j62508954026414_1_alg».proof.Proof.Gen.Kernel.Skeleton
import proofs.«158676_j62508954026414_1_alg».proof.Proof.Gen.Kernel.Launch
import proofs.«158676_j62508954026414_1_alg».proof.Proof.Gen.Kernel.Points
import proofs.«158676_j62508954026414_1_alg».proof.Proof.Gen.Kernel.Frame
import proofs.«158676_j62508954026414_1_alg».proof.Proof.Gen.KernelIdeal
import proofs.«158676_j62508954026414_1_alg».proof.Proof.Gen.KernelIdeal.Skeleton
import proofs.«158676_j62508954026414_1_alg».proof.Proof.Gen.KernelIdeal.Launch
import proofs.«158676_j62508954026414_1_alg».proof.Proof.Gen.KernelIdeal.Points
import proofs.«158676_j62508954026414_1_alg».proof.Proof.Gen.KernelIdeal.Frame
import proofs.«158676_j62508954026414_1_alg».proof.Proof.Gen.ReferenceIdeal
import proofs.«158676_j62508954026414_1_alg».proof.Proof.Gen.Pre_finite_inputs
import proofs.«158676_j62508954026414_1_alg».proof.Proof.KernelRun
import proofs.«158676_j62508954026414_1_alg».proof.Proof.KernelFold
import proofs.«158676_j62508954026414_1_alg».proof.Proof.RefRun
import proofs.«158676_j62508954026414_1_alg».proof.Proof.RowBlockProducts
import proofs.«158676_j62508954026414_1_alg».proof.Proof.RowBlockLogSoftmax
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The ideal pass rewrote no operation. -/
theorem preserves : Cert.preserves_Kernel_KernelIdeal := trivial

/-- From memories agreeing on the arguments both idealized programs end with the result buffer at the network of the
    arguments: the kernel program by the walk through its segments with the three regions' values, the reference by its
    run; the agreement carries the reference's arguments over to the kernel program's. -/
theorem algebraic : Cert.algebraic_KernelIdeal_ReferenceIdeal := by
  intro m ρ m' ρ' _ hagree
  refine ⟨fun c => Cert.Stages.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fold.result_eq m ρ
          Cert.KernelIdeal.Regions.Product.region0_value Cert.KernelIdeal.Regions.Product.region1_value
          Cert.KernelIdeal.Regions.LogSoftmax.region2_value c), (h c).2⟩)
      (Cert.KernelIdeal.HandRun.run_named (F := Ideal) m ρ)
  · refine (θ_run Cert.ReferenceIdeal.defs _ _).mono (fun _ h c => ⟨(h c).1.trans ?_, (h c).2⟩)
      (Cert.ReferenceIdeal.HandRun.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
